-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S2x2048x4096 .f32) (main_arg1 : FVec F S4096x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S2x2048x4096 : Shape := ⟨3, ![2, 2048, 4096]⟩
abbrev S4096x4096 : Shape := ⟨2, ![4096, 4096]⟩
abbrev S1024x512 : Shape := ⟨2, ![1024, 512]⟩
abbrev S1024x4x128 : Shape := ⟨3, ![1024, 4, 128]⟩
abbrev S1024x4 : Shape := ⟨2, ![1024, 4]⟩
abbrev S1024x4x1 : Shape := ⟨3, ![1024, 4, 1]⟩
abbrev S2048x512 : Shape := ⟨2, ![2048, 512]⟩
abbrev S1024x2048 : Shape := ⟨2, ![1024, 2048]⟩

abbrev nBuf : Space → Nat
  | .hbm => 7
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .f32⟩
  | .hbm, ⟨6, _⟩ => ⟨S2x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | .local _ .vmem, ⟨7, _⟩ => ⟨S2048x512, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S2x2048x4096_S4096x4096 : S2x2048x4096.ShapeCasts S4096x4096
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x4x128 : S1024x512.ShapeCasts S1024x4x128
  reduces_S1024x4x128_S1024x4 : S1024x4x128.Reduces [2] S1024x4
  shapeCasts_S1024x4_S1024x4x1 : S1024x4.ShapeCasts S1024x4x1
  broadcasts_S1024x4x1_S1024x4x128 : S1024x4x1.Broadcasts S1024x4x128
  shapeCasts_S1024x4x1_S1024x4x1 : S1024x4x1.ShapeCasts S1024x4x1
  shapeCasts_S1024x4x128_S1024x512 : S1024x4x128.ShapeCasts S1024x512
  packedbf16_S1024x512_S1024x512_0_0 : (Rect.unit (s := S1024x512) ![0, 0] S1024x512.size inb_S1024x512_S1024x512_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S4096x4096_S2x2048x4096 : S4096x4096.ShapeCasts S2x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x4096.size a
  hwx1_0 : ∀ i : grid1.Coords, EltTy.bits .bf16 = 32 ∨ (Rect.block (s := S4096x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S4096x4096.size a
  hwx1_2 : ∀ i : grid1.Coords, EltTy.bits .f32 = 32 ∨ (Rect.block (s := S4096x4096) S1024x2048.size (cc1_transform_2 i) (hinb1_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096x32x128 : Shape := ⟨3, ![4096, 32, 128]⟩
abbrev S_ : Shape := ⟨0, ![]⟩
abbrev S4096x32 : Shape := ⟨2, ![4096, 32]⟩
abbrev S4096x32x1 : Shape := ⟨3, ![4096, 32, 1]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x32x128, .f32⟩
  | .hbm, ⟨3, _⟩ => ⟨S4096x32x128, .f32⟩
  | .hbm, ⟨4, _⟩ => ⟨S_, .f32⟩
  | .hbm, ⟨5, _⟩ => ⟨S4096x32, .f32⟩
  | .hbm, ⟨6, _⟩ => ⟨S4096x32x1, .f32⟩
  | .hbm, ⟨7, _⟩ => ⟨S_, .f32⟩
  | .hbm, ⟨8, _⟩ => ⟨S4096x32x1, .f32⟩
  | .hbm, ⟨9, _⟩ => ⟨S4096x32x1, .f32⟩
  | .hbm, ⟨10, _⟩ => ⟨S_, .f32⟩
  | .hbm, ⟨11, _⟩ => ⟨S4096x32x1, .f32⟩
  | .hbm, ⟨12, _⟩ => ⟨S4096x32x1, .f32⟩
  | .hbm, ⟨13, _⟩ => ⟨S4096x32x128, .f32⟩
  | .hbm, ⟨14, _⟩ => ⟨S4096x32x128, .f32⟩
  | .hbm, ⟨15, _⟩ => ⟨S_, .f32⟩
  | .hbm, ⟨16, _⟩ => ⟨S4096x32x128, .f32⟩
  | .hbm, ⟨17, _⟩ => ⟨S4096x32x128, .i1⟩
  | .hbm, ⟨18, _⟩ => ⟨S_, .f32⟩
  | .hbm, ⟨19, _⟩ => ⟨S4096x32x128, .f32⟩
  | .hbm, ⟨20, _⟩ => ⟨S4096x32x128, .i1⟩
  | .hbm, ⟨21, _⟩ => ⟨S_, .f32⟩
  | .hbm, ⟨22, _⟩ => ⟨S_, .f32⟩
  | .hbm, ⟨23, _⟩ => ⟨S4096x32x128, .f32⟩
  | .hbm, ⟨24, _⟩ => ⟨S4096x32x128, .f32⟩
  | .hbm, ⟨25, _⟩ => ⟨S4096x32x128, .f32⟩
  | .hbm, ⟨26, _⟩ => ⟨S_, .f32⟩
  | .hbm, ⟨27, _⟩ => ⟨S4096x32x128, .f32⟩
  | .hbm, ⟨28, _⟩ => ⟨S4096x32x128, .f32⟩
  | .hbm, ⟨29, _⟩ => ⟨S4096x32x128, .f32⟩
  | .hbm, ⟨30, _⟩ => ⟨S4096x32x128, .f32⟩
  | .hbm, ⟨31, _⟩ => ⟨S4096x32x128, .f32⟩
  | .hbm, ⟨32, _⟩ => ⟨S4096x4096, .f32⟩
  | .hbm, ⟨33, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_cst_5 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_6 : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  shapeCasts_S4096x4096_S4096x32x128 : S4096x4096.ShapeCasts S4096x32x128
  reducesTo_S4096x32x128_S4096x32_d2 : S4096x32x128.ReducesTo [2] S4096x32
  h_S_ : 0 < S_.numel
  bcast_S4096x32_S4096x32x1_0_1 : S4096x32.BroadcastsInDim S4096x32x1 (![0, 1] : Fin 2 → Fin S4096x32x1.rank)
  bcast_S_S4096x32x1 : S_.BroadcastsInDim S4096x32x1 (![] : Fin 0 → Fin S4096x32x1.rank)
  bcast_S4096x32x1_S4096x32x128_0_1_2 : S4096x32x1.BroadcastsInDim S4096x32x128 (![0, 1, 2] : Fin 3 → Fin S4096x32x128.rank)
  bcast_S_S4096x32x128 : S_.BroadcastsInDim S4096x32x128 (![] : Fin 0 → Fin S4096x32x128.rank)
  shapeCasts_S4096x32x128_S4096x4096 : S4096x32x128.ShapeCasts S4096x4096
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.KR0.lean ====
/- Region 0 of the program (the quantization kernel), at a parameter `V`: the contents of the TensorCore's
   buffers when the region is entered. Each grid point loads one 1024×512 block of the weight, computes the
   groupwise ternary quantization of that block and stores it whole into the output block. -/
import proofs.«104997_j10376640987248_2_alg».proof.Proof.Gen.Kernel.Launch
import proofs.«104997_j10376640987248_2_alg».proof.Proof.Gen.Kernel.Skeleton
import proofs.«104997_j10376640987248_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole block as a rectangle. -/
abbrev r0_0 : Rect S1024x512 := Rect.unit (s := S1024x512) ![0, 0] S1024x512.size inb_S1024x512_S1024x512_0_0

/-- What the body leaves in the output block: its one store, of the quantized input block. -/
def out0_1 (x0 : Vec F S1024x512 .f32) : Vec F S1024x512 .bf16 :=
  View.canon [⟨r0_0, k0_pay1 (View.ld x0 r0_0)⟩]

/-- The one store covers the block. -/
theorem cover0_1 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

set_option maxHeartbeats 1000000 in
/-- The body on whole staging buffers: the input's kept, the output's left at `out0_1` of the input's. -/
theorem sound_kernel0 (c : Dev nD) (E : Set ℕ) (i : grid0.Coords) (arg2 : Memref sig .tc .vmem S1024x512 .f32) (harg2 : arg2.IsWhole) (arg3 : Memref sig .tc .vmem S1024x512 .bf16) (harg3 : arg3.IsWhole)
    (x0 : Vec F S1024x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__quantize_kernel i arg2 harg2 arg3 harg3) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`: the invariant, the core's record of waits, and each window's
    current staging buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What the body returns at point `t`: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds the input block, so the body's triple applies; the invariant
    and the record of waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Runs.lean ====
/- Region 1 of the program (the tiled matrix product), what its three control cases share, at a parameter `V`: the
   contents of the TensorCore's buffers when the region is entered. A grid point (i, j, k) multiplies the 1024×512
   block (i, k) of the activations with the 2048×512 block (j, k) of the quantized weight and adds the product to a
   1024×2048 accumulator kept in a scratch buffer between points: the accumulator is zeroed first when k = 0 and copied
   to the output block (i, j) when k = 7. In the linear order of the 64 points, k is the point's number modulo 8. -/
import proofs.«104997_j10376640987248_2_alg».proof.Proof.Gen.Kernel.Launch
import proofs.«104997_j10376640987248_2_alg».proof.Proof.Gen.Kernel.Skeleton
import proofs.«104997_j10376640987248_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "k = 0": the accumulator is zeroed first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7": the accumulator is copied to the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where k < 7 the body stores nothing into the output block and the block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The buffers the body is called with -/

/-- One staging buffer of the output window, through which its contents are stated. -/
abbrev VO1_2 : View sig .tc .vmem S1024x2048 .f32 := (Memref.whole cc1_stg2_0 : Memref sig .tc .vmem S1024x2048 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x2048 .f32 := Memref.whole cc1_scratch0
abbrev VS1_0 : View sig .tc .vmem S1024x2048 .f32 := scM1_0.view

/-- The region's default invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KR1RunA.lean ====
/- Region 1's body at a point with k = 0: the accumulator, whatever it held, is zeroed, then the product of the two
   input blocks is added to it; the output block is left untouched. -/
import proofs.«104997_j10376640987248_2_alg».proof.Proof.KR1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block (none) and in the accumulator, with the body's triple. -/
noncomputable def kernelRun1_A (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__bitlinear_kernel i arg3 harg3 arg4 harg4 arg5 harg5 arg6 harg6) K } := by
  refine ⟨[], ?_, fun xi2 E K => ?run⟩
  case run =>
    simp only [cc1__bitlinear_kernel_eq_skeleton]; unfold cc1__bitlinear_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KR1RunB.lean ====
/- Region 1's body at a point with 0 < k < 7: the product of the two input blocks is added to the accumulator the point
   before left; the output block is left untouched. -/
import proofs.«104997_j10376640987248_2_alg».proof.Proof.KR1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block (none) and in the accumulator, with the body's triple. -/
noncomputable def kernelRun1_B (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__bitlinear_kernel i arg3 harg3 arg4 harg4 arg5 harg5 arg6 harg6) K } := by
  refine ⟨[], ?_, fun xi2 E K => ?run⟩
  case run =>
    simp only [cc1__bitlinear_kernel_eq_skeleton]; unfold cc1__bitlinear_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KR1RunC.lean ====
/- Region 1's body at a point with k = 7: the product of the two input blocks is added to the accumulator the point
   before left, and the accumulator is copied whole into the output block. -/
import proofs.«104997_j10376640987248_2_alg».proof.Proof.KR1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block and in the accumulator, with the body's triple. -/
noncomputable def kernelRun1_C (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) :
    Σ' (L2 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__bitlinear_kernel i arg3 harg3 arg4 harg4 arg5 harg5 arg6 harg6) K } := by
  refine ⟨?_, ?_, fun E K => ?run⟩
  case run =>
    simp only [cc1__bitlinear_kernel_eq_skeleton]; unfold cc1__bitlinear_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.KR1.lean ====
/- Region 1 of the program (the tiled matrix product): what its output block and its accumulator hold after each
   grid point, the pipeline's proof data over an invariant that follows the accumulator from point to point, and the
   body obligation. -/
import proofs.«104997_j10376640987248_2_alg».proof.Proof.KR1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scover1_A_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) (y : S1024x2048.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x2048.size (by sl_kernel_rfl) y

/-- What case A leaves in the accumulator: its pieces read back. -/
def sout1_A_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) : Vec F S1024x2048 .f32 :=
  VS1_0.read (Elt F) (VS1_0.writes (Elt F) VS1_0.junk (kernelRun1_A c i arg3 harg3 arg4 harg4 arg5 harg5 arg6 harg6 hc0 hc1 x0 x1).2.1)

/-- What case A leaves in the output block: its pieces read back (none where the case stores nothing there). -/
def out1_A_2 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) : Vec F S1024x2048 .f32 :=
  VO1_2.read (Elt F) (VO1_2.writes (Elt F) VO1_2.junk (kernelRun1_A c i arg3 harg3 arg4 harg4 arg5 harg5 arg6 harg6 hc0 hc1 x0 x1).1)

theorem scover1_B_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) (y : S1024x2048.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x2048.size (by sl_kernel_rfl) y

/-- What case B leaves in the accumulator: its pieces read back. -/
def sout1_B_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) : Vec F S1024x2048 .f32 :=
  VS1_0.read (Elt F) (VS1_0.writes (Elt F) VS1_0.junk (kernelRun1_B c i arg3 harg3 arg4 harg4 arg5 harg5 arg6 harg6 hc0 hc1 x0 x1 xs0).2.1)

/-- What case B leaves in the output block: its pieces read back (none where the case stores nothing there). -/
def out1_B_2 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) : Vec F S1024x2048 .f32 :=
  VO1_2.read (Elt F) (VO1_2.writes (Elt F) VO1_2.junk (kernelRun1_B c i arg3 harg3 arg4 harg4 arg5 harg5 arg6 harg6 hc0 hc1 x0 x1 xs0).1)

theorem scover1_C_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) (y : S1024x2048.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x2048.size (by sl_kernel_rfl) y

/-- What case C leaves in the accumulator: its pieces read back. -/
def sout1_C_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) : Vec F S1024x2048 .f32 :=
  VS1_0.read (Elt F) (VS1_0.writes (Elt F) VS1_0.junk (kernelRun1_C c i arg3 harg3 arg4 harg4 arg5 harg5 arg6 harg6 hc0 hc1 x0 x1 xs0).2.1)

/-- What case C leaves in the output block: its pieces read back (none where the case stores nothing there). -/
def out1_C_2 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) : Vec F S1024x2048 .f32 :=
  VO1_2.read (Elt F) (VO1_2.writes (Elt F) VO1_2.junk (kernelRun1_C c i arg3 harg3 arg4 harg4 arg5 harg5 arg6 harg6 hc0 hc1 x0 x1 xs0).1)

/-- Case C's one store into the output block covers it. -/
theorem cover1_C_2 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) (y : S1024x2048.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x2048.size (by sl_kernel_rfl) y

/-! ## What the output block and the accumulator hold after each point -/

/-- After the body at position `n`: (the output block's staging buffer, the accumulator). The case is the one the
    position's k = n mod 8 selects; where k > 0 the accumulator goes in at what position n − 1 left. -/
def outsAt1 (c : Dev nD) : (n : ℕ) → n < cfg1.N → Vec F S1024x2048 .f32 × Vec F S1024x2048 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the default one (every scoped buffer that is
    no staging buffer of the region at anything); afterwards the same with the accumulator at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; k = t mod 8 selects the case; the invariant hands
    the body the accumulator at what the point before left (at anything before the first point) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨HR0, HR1, HR2, HR3, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨HR0, HR1, HR2, HR3, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS_castSucc V c t, PhiS_pos V c _ _ hz]
      iintro ⟨⟨⟨HR0, HR1, HR2, HR3, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS_castSucc V c t, PhiS_pos V c _ _ hz]
      iintro ⟨⟨⟨HR0, HR1, HR2, HR3, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the default one back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HS0⟩, Hg⟩
  isplitl [HR0 HR1 HR2 HR3 HS0]
  · isplitl [HR0]; · iexact HR0
    isplitl [HR1]; · iexact HR1
    isplitl [HR2]; · iexact HR2
    isplitl [HR3]; · iexact HR3
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.KRegions.lean ====
/- The run of the program through its four stretches — the host reshape and rounding of the activations, the
   quantization region, the accumulation region, the host reshape of the result —: the contents of every buffer at
   each boundary, folded from the launch memory, and the two regions' records assembled into the whole run. -/
import proofs.«104997_j10376640987248_2_alg».proof.Proof.Gen.Kernel.Launch
import proofs.«104997_j10376640987248_2_alg».proof.Proof.Gen.Kernel.Regions
import proofs.«104997_j10376640987248_2_alg».proof.Proof.KR0
import proofs.«104997_j10376640987248_2_alg».proof.Proof.KR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first host stretch (the quantization region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the quantization region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the accumulation region's entry contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the accumulation region's exit: its arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: the contents the program returns with. -/
abbrev W4 : Dev nD → Valuation τ sig (Elt F) := fun c => StableHlo.after hostOps2 (W3 m ρ c)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- The weight reaches the quantization region as launched. -/
theorem V1_main_arg1 (c : Dev nD) : V1 m ρ c main_arg1 = m ((c : Thread nD τ).loc main_arg1) :=
  (StableHlo.after_of_writes_sub hostOps0 (W0 m ρ c) hostOps0_writes (by decide) :
    W1 m ρ c (Proc.devRef .tc main_arg1) = W0 m ρ c (Proc.devRef .tc main_arg1)).trans rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := V1_main_arg1 m ρ c

/-! ### What the regions read and what the program returns -/

/-- The accumulation region finds the activations flattened and rounded. -/
theorem V2_main_v1 (c : Dev nD) :
    V2 m ρ c main_v1 = truncf (F := F) .bf16 (shapeCast S4096x4096 (m ((c : Thread nD τ).loc main_arg0)) shapeCasts_S2x2048x4096_S4096x4096) bitsLt_bf16_f32 :=
  (W2_of_ne m ρ c main_v1 (by decide)).trans (by after_results <;> rfl)

/-- It finds the quantized weight as the quantization region's write-backs left it. -/
theorem V2_main_v2 (c : Dev nD) : V2 m ρ c main_v2 = (dat0 (V1 m ρ) c).arrAt 1 cfg0.N := W2_arr m ρ c 1

/-- The program's result is the accumulation region's output array, reshaped. -/
theorem W4_main_v4 (c : Dev nD) :
    W4 m ρ c (Proc.devRef .tc main_v4)
      = shapeCast S2x2048x4096 ((dat1 (V2 m ρ) c).arrAt 2 cfg1.N) shapeCasts_S4096x4096_S2x2048x4096 :=
  (by after_results <;> rfl : W4 m ρ c (Proc.devRef .tc main_v4)
      = shapeCast S2x2048x4096 (W3 m ρ c (Proc.devRef .tc main_v3)) shapeCasts_S4096x4096_S2x2048x4096).trans
    (congrArg (fun x => shapeCast S2x2048x4096 x shapeCasts_S4096x4096_S2x2048x4096) (W3_arr m ρ c 2))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state and its
    `owes`, at nothing. -/
abbrev R (c : Dev nD) : sProp 𝕄 := iprop((∃ r, prngReg c r) ∗ ∃ W, owes (c : Thread nD τ) (0 : CellTallies nD τ sig Unit) W)
/-- A host stretch: its operations over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The quantization region over the thread state: entered from every unscoped buffer at `W1`, left at `W2`. Its arrays
    are split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulation region over the thread state: entered from every unscoped buffer at `W2`, left at `W3`. Its
    invariant follows the accumulator from point to point, so the generator register and the scoped rest enter it and
    leave it through the two entailments that tie it to the plain invariant at the region's ends. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed_eq1 (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V2 m ρ) c w) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed_eq1 (V2 m ρ) c 0]
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    refine BIBase.Entails.trans (hout1 (V2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from owed_eq1 (V2 m ρ) c _]
    icases HO with ⟨%W, -, HO⟩; iexists W; iexact HO

/-! ## The program as segments, and the launch -/

/-- The program's four segments in order: a host segment per stretch from its boundary's contents, a region per
    kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of the segments. -/
theorem main_run (c : Dev nD) : main (F := F) c = Pipeline.Seg.run (segs m ρ) := (main_chain c).trans (by chain_rfl)

set_option backward.isDefEq.respectTransparency.types false in
/-- THE RUN. From any memory with zero counters, every weakly fair execution of the program on the TensorCores
    terminates, nothing faulting, and every final state holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the program runs and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.Kernel.Hand

end
-- ==== Proof.IR0.lean ====
/- Region 0 of the program (the quantization kernel), at a parameter `V`: the contents of the TensorCore's
   buffers when the region is entered. Each grid point loads one 1024×512 block of the weight, computes the
   groupwise ternary quantization of that block and stores it whole into the output block. -/
import proofs.«104997_j10376640987248_2_alg».proof.Proof.Gen.KernelIdeal.Launch
import proofs.«104997_j10376640987248_2_alg».proof.Proof.Gen.KernelIdeal.Skeleton
import proofs.«104997_j10376640987248_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole block as a rectangle. -/
abbrev r0_0 : Rect S1024x512 := Rect.unit (s := S1024x512) ![0, 0] S1024x512.size inb_S1024x512_S1024x512_0_0

/-- What the body leaves in the output block: its one store, of the quantized input block. -/
def out0_1 (x0 : Vec F S1024x512 .f32) : Vec F S1024x512 .bf16 :=
  View.canon [⟨r0_0, k0_pay1 (View.ld x0 r0_0)⟩]

/-- The one store covers the block. -/
theorem cover0_1 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

set_option maxHeartbeats 1000000 in
/-- The body on whole staging buffers: the input's kept, the output's left at `out0_1` of the input's. -/
theorem sound_kernel0 (c : Dev nD) (E : Set ℕ) (i : grid0.Coords) (arg2 : Memref sig .tc .vmem S1024x512 .f32) (harg2 : arg2.IsWhole) (arg3 : Memref sig .tc .vmem S1024x512 .bf16) (harg3 : arg3.IsWhole)
    (x0 : Vec F S1024x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__quantize_kernel i arg2 harg2 arg3 harg3) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`: the invariant, the core's record of waits, and each window's
    current staging buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What the body returns at point `t`: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds the input block, so the body's triple applies; the invariant
    and the record of waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IR1Runs.lean ====
/- Region 1 of the program (the tiled matrix product), what its three control cases share, at a parameter `V`: the
   contents of the TensorCore's buffers when the region is entered. A grid point (i, j, k) multiplies the 1024×512
   block (i, k) of the activations with the 2048×512 block (j, k) of the quantized weight and adds the product to a
   1024×2048 accumulator kept in a scratch buffer between points: the accumulator is zeroed first when k = 0 and copied
   to the output block (i, j) when k = 7. In the linear order of the 64 points, k is the point's number modulo 8. -/
import proofs.«104997_j10376640987248_2_alg».proof.Proof.Gen.KernelIdeal.Launch
import proofs.«104997_j10376640987248_2_alg».proof.Proof.Gen.KernelIdeal.Skeleton
import proofs.«104997_j10376640987248_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "k = 0": the accumulator is zeroed first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7": the accumulator is copied to the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where k < 7 the body stores nothing into the output block and the block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The buffers the body is called with -/

/-- One staging buffer of the output window, through which its contents are stated. -/
abbrev VO1_2 : View sig .tc .vmem S1024x2048 .f32 := (Memref.whole cc1_stg2_0 : Memref sig .tc .vmem S1024x2048 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x2048 .f32 := Memref.whole cc1_scratch0
abbrev VS1_0 : View sig .tc .vmem S1024x2048 .f32 := scM1_0.view

/-- The region's default invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.IR1RunA.lean ====
/- Region 1's body at a point with k = 0: the accumulator, whatever it held, is zeroed, then the product of the two
   input blocks is added to it; the output block is left untouched. -/
import proofs.«104997_j10376640987248_2_alg».proof.Proof.IR1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block (none) and in the accumulator, with the body's triple. -/
noncomputable def kernelRun1_A (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__bitlinear_kernel i arg3 harg3 arg4 harg4 arg5 harg5 arg6 harg6) K } := by
  refine ⟨[], ?_, fun xi2 E K => ?run⟩
  case run =>
    simp only [cc1__bitlinear_kernel_eq_skeleton]; unfold cc1__bitlinear_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.IR1RunB.lean ====
/- Region 1's body at a point with 0 < k < 7: the product of the two input blocks is added to the accumulator the point
   before left; the output block is left untouched. -/
import proofs.«104997_j10376640987248_2_alg».proof.Proof.IR1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block (none) and in the accumulator, with the body's triple. -/
noncomputable def kernelRun1_B (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) :
    Σ' (L2 : List (View.Piece (Elt F) S1024x2048 .f32)), { LS0 : List (View.Piece (Elt F) S1024x2048 .f32) //
      ∀ (xi2 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__bitlinear_kernel i arg3 harg3 arg4 harg4 arg5 harg5 arg6 harg6) K } := by
  refine ⟨[], ?_, fun xi2 E K => ?run⟩
  case run =>
    simp only [cc1__bitlinear_kernel_eq_skeleton]; unfold cc1__bitlinear_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.IR1RunC.lean ====
/- Region 1's body at a point with k = 7: the product of the two input blocks is added to the accumulator the point
   before left, and the accumulator is copied whole into the output block. -/
import proofs.«104997_j10376640987248_2_alg».proof.Proof.IR1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block and in the accumulator, with the body's triple. -/
noncomputable def kernelRun1_C (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) :
    Σ' (L2 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__bitlinear_kernel i arg3 harg3 arg4 harg4 arg5 harg5 arg6 harg6) K } := by
  refine ⟨?_, ?_, fun E K => ?run⟩
  case run =>
    simp only [cc1__bitlinear_kernel_eq_skeleton]; unfold cc1__bitlinear_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.IR1.lean ====
/- Region 1 of the program (the tiled matrix product): what its output block and its accumulator hold after each
   grid point, the pipeline's proof data over an invariant that follows the accumulator from point to point, and the
   body obligation. -/
import proofs.«104997_j10376640987248_2_alg».proof.Proof.IR1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scover1_A_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) (y : S1024x2048.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x2048.size (by sl_kernel_rfl) y

/-- What case A leaves in the accumulator: its pieces read back. -/
def sout1_A_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) : Vec F S1024x2048 .f32 :=
  VS1_0.read (Elt F) (VS1_0.writes (Elt F) VS1_0.junk (kernelRun1_A c i arg3 harg3 arg4 harg4 arg5 harg5 arg6 harg6 hc0 hc1 x0 x1).2.1)

/-- What case A leaves in the output block: its pieces read back (none where the case stores nothing there). -/
def out1_A_2 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) : Vec F S1024x2048 .f32 :=
  VO1_2.read (Elt F) (VO1_2.writes (Elt F) VO1_2.junk (kernelRun1_A c i arg3 harg3 arg4 harg4 arg5 harg5 arg6 harg6 hc0 hc1 x0 x1).1)

theorem scover1_B_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) (y : S1024x2048.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x2048.size (by sl_kernel_rfl) y

/-- What case B leaves in the accumulator: its pieces read back. -/
def sout1_B_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) : Vec F S1024x2048 .f32 :=
  VS1_0.read (Elt F) (VS1_0.writes (Elt F) VS1_0.junk (kernelRun1_B c i arg3 harg3 arg4 harg4 arg5 harg5 arg6 harg6 hc0 hc1 x0 x1 xs0).2.1)

/-- What case B leaves in the output block: its pieces read back (none where the case stores nothing there). -/
def out1_B_2 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (xs0 : Vec F S1024x2048 .f32) : Vec F S1024x2048 .f32 :=
  VO1_2.read (Elt F) (VO1_2.writes (Elt F) VO1_2.junk (kernelRun1_B c i arg3 harg3 arg4 harg4 arg5 harg5 arg6 harg6 hc0 hc1 x0 x1 xs0).1)

theorem scover1_C_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) (y : S1024x2048.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x2048.size (by sl_kernel_rfl) y

/-- What case C leaves in the accumulator: its pieces read back. -/
def sout1_C_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) : Vec F S1024x2048 .f32 :=
  VS1_0.read (Elt F) (VS1_0.writes (Elt F) VS1_0.junk (kernelRun1_C c i arg3 harg3 arg4 harg4 arg5 harg5 arg6 harg6 hc0 hc1 x0 x1 xs0).2.1)

/-- What case C leaves in the output block: its pieces read back (none where the case stores nothing there). -/
def out1_C_2 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) : Vec F S1024x2048 .f32 :=
  VO1_2.read (Elt F) (VO1_2.writes (Elt F) VO1_2.junk (kernelRun1_C c i arg3 harg3 arg4 harg4 arg5 harg5 arg6 harg6 hc0 hc1 x0 x1 xs0).1)

/-- Case C's one store into the output block covers it. -/
theorem cover1_C_2 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (xs0 : Vec F S1024x2048 .f32) (y : S1024x2048.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x2048.size (by sl_kernel_rfl) y

/-! ## What the output block and the accumulator hold after each point -/

/-- After the body at position `n`: (the output block's staging buffer, the accumulator). The case is the one the
    position's k = n mod 8 selects; where k > 0 the accumulator goes in at what position n − 1 left. -/
def outsAt1 (c : Dev nD) : (n : ℕ) → n < cfg1.N → Vec F S1024x2048 .f32 × Vec F S1024x2048 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the default one (every scoped buffer that is
    no staging buffer of the region at anything); afterwards the same with the accumulator at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; k = t mod 8 selects the case; the invariant hands
    the body the accumulator at what the point before left (at anything before the first point) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨⟨⟨HR0, HR1, HR2, HR3, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨HR0, HR1, HR2, HR3, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS_castSucc V c t, PhiS_pos V c _ _ hz]
      iintro ⟨⟨⟨HR0, HR1, HR2, HR3, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS_castSucc V c t, PhiS_pos V c _ _ hz]
      iintro ⟨⟨⟨HR0, HR1, HR2, HR3, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the default one back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HS0⟩, Hg⟩
  isplitl [HR0 HR1 HR2 HR3 HS0]
  · isplitl [HR0]; · iexact HR0
    isplitl [HR1]; · iexact HR1
    isplitl [HR2]; · iexact HR2
    isplitl [HR3]; · iexact HR3
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.IRegions.lean ====
/- The run of the program through its four stretches — the host reshape and rounding of the activations, the
   quantization region, the accumulation region, the host reshape of the result —: the contents of every buffer at
   each boundary, folded from the launch memory, and the two regions' records assembled into the whole run. -/
import proofs.«104997_j10376640987248_2_alg».proof.Proof.Gen.KernelIdeal.Launch
import proofs.«104997_j10376640987248_2_alg».proof.Proof.Gen.KernelIdeal.Regions
import proofs.«104997_j10376640987248_2_alg».proof.Proof.IR0
import proofs.«104997_j10376640987248_2_alg».proof.Proof.IR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first host stretch (the quantization region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the quantization region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the accumulation region's entry contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the accumulation region's exit: its arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: the contents the program returns with. -/
abbrev W4 : Dev nD → Valuation τ sig (Elt F) := fun c => StableHlo.after hostOps2 (W3 m ρ c)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- The weight reaches the quantization region as launched. -/
theorem V1_main_arg1 (c : Dev nD) : V1 m ρ c main_arg1 = m ((c : Thread nD τ).loc main_arg1) :=
  (StableHlo.after_of_writes_sub hostOps0 (W0 m ρ c) hostOps0_writes (by decide) :
    W1 m ρ c (Proc.devRef .tc main_arg1) = W0 m ρ c (Proc.devRef .tc main_arg1)).trans rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := V1_main_arg1 m ρ c

/-! ### What the regions read and what the program returns -/

/-- The accumulation region finds the activations flattened and rounded. -/
theorem V2_main_v1 (c : Dev nD) :
    V2 m ρ c main_v1 = truncf (F := F) .bf16 (shapeCast S4096x4096 (m ((c : Thread nD τ).loc main_arg0)) shapeCasts_S2x2048x4096_S4096x4096) bitsLt_bf16_f32 :=
  (W2_of_ne m ρ c main_v1 (by decide)).trans (by after_results <;> rfl)

/-- It finds the quantized weight as the quantization region's write-backs left it. -/
theorem V2_main_v2 (c : Dev nD) : V2 m ρ c main_v2 = (dat0 (V1 m ρ) c).arrAt 1 cfg0.N := W2_arr m ρ c 1

/-- The program's result is the accumulation region's output array, reshaped. -/
theorem W4_main_v4 (c : Dev nD) :
    W4 m ρ c (Proc.devRef .tc main_v4)
      = shapeCast S2x2048x4096 ((dat1 (V2 m ρ) c).arrAt 2 cfg1.N) shapeCasts_S4096x4096_S2x2048x4096 :=
  (by after_results <;> rfl : W4 m ρ c (Proc.devRef .tc main_v4)
      = shapeCast S2x2048x4096 (W3 m ρ c (Proc.devRef .tc main_v3)) shapeCasts_S4096x4096_S2x2048x4096).trans
    (congrArg (fun x => shapeCast S2x2048x4096 x shapeCasts_S4096x4096_S2x2048x4096) (W3_arr m ρ c 2))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state and its
    `owes`, at nothing. -/
abbrev R (c : Dev nD) : sProp 𝕄 := iprop((∃ r, prngReg c r) ∗ ∃ W, owes (c : Thread nD τ) (0 : CellTallies nD τ sig Unit) W)
/-- A host stretch: its operations over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The quantization region over the thread state: entered from every unscoped buffer at `W1`, left at `W2`. Its arrays
    are split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulation region over the thread state: entered from every unscoped buffer at `W2`, left at `W3`. Its
    invariant follows the accumulator from point to point, so the generator register and the scoped rest enter it and
    leave it through the two entailments that tie it to the plain invariant at the region's ends. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed_eq1 (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V2 m ρ) c w) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed_eq1 (V2 m ρ) c 0]
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    refine BIBase.Entails.trans (hout1 (V2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from owed_eq1 (V2 m ρ) c _]
    icases HO with ⟨%W, -, HO⟩; iexists W; iexact HO

/-! ## The program as segments, and the launch -/

/-- The program's four segments in order: a host segment per stretch from its boundary's contents, a region per
    kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of the segments. -/
theorem main_run (c : Dev nD) : main (F := F) c = Pipeline.Seg.run (segs m ρ) := (main_chain c).trans (by chain_rfl)

set_option backward.isDefEq.respectTransparency.types false in
/-- THE RUN. From any memory with zero counters, every weakly fair execution of the program on the TensorCores
    terminates, nothing faulting, and every final state holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the program runs and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.IVal1a.lean ====
/- Region 1: what each control case leaves in the accumulator and in the output block, as the body's arithmetic
   applied to the point's two input blocks and to what the accumulator held. With k = 0 the accumulator is first zeroed,
   so the case leaves the product added to zero; with k > 0 the product is added to what the point before left; with
   k = 7 the output block receives what the accumulator then holds. -/
import proofs.«104997_j10376640987248_2_alg».proof.Proof.IR1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem soutA_eq (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i) (x0 : Vec F S1024x512 .bf16) (x1 : Vec F S2048x512 .bf16) :
    sout1_A_0 c i arg3 harg3 arg4 harg4 arg5 harg5 arg6 harg6 hc0 hc1 x0 x1 = k1_pay2 x0 x1 (k1_pay1 (F := F)) := by
  unfold sout1_A_0
  rw [View.read_writes_eq_canon _ _ _ (scover1_A_0 c i arg3 harg3 arg4 harg4 arg5 harg5 arg6 harg6 hc0 hc1 x0 x1)]
  unfold kernelRun1_A
  dsimp only
  try sl_unfold_words
  rw [View.canon_cons_unit_zero hz, View.readCov_unit_zero (S := S1024x2048) _ hz]
  simp only [View.readAt_eq_ld, harg3.read_unread, harg4.read_unread, harg6.read_unread, View.ld_unit_zero (S := S1024x512) hz, View.ld_unit_zero (S := S2048x512) hz, View.ld_unit_zero (S := S1024x2048) hz]

theorem soutB_eq (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i) (x0 : Vec F S1024x512 .bf16) (x1 : Vec F S2048x512 .bf16) (xs0 : Vec F S1024x2048 .f32) :
    sout1_B_0 c i arg3 harg3 arg4 harg4 arg5 harg5 arg6 harg6 hc0 hc1 x0 x1 xs0 = k1_pay2 x0 x1 xs0 := by
  unfold sout1_B_0
  rw [View.read_writes_eq_canon _ _ _ (scover1_B_0 c i arg3 harg3 arg4 harg4 arg5 harg5 arg6 harg6 hc0 hc1 x0 x1 xs0)]
  unfold kernelRun1_B
  dsimp only
  try sl_unfold_words
  rw [View.canon_unit_zero hz]
  simp only [View.readAt_eq_ld, harg3.read_unread, harg4.read_unread, harg6.read_unread, View.ld_unit_zero (S := S1024x512) hz, View.ld_unit_zero (S := S2048x512) hz, View.ld_unit_zero (S := S1024x2048) hz]

theorem soutC_eq (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x512 .bf16) (x1 : Vec F S2048x512 .bf16) (xs0 : Vec F S1024x2048 .f32) :
    sout1_C_0 c i arg3 harg3 arg4 harg4 arg5 harg5 arg6 harg6 hc0 hc1 x0 x1 xs0 = k1_pay2 x0 x1 xs0 := by
  unfold sout1_C_0
  rw [View.read_writes_eq_canon _ _ _ (scover1_C_0 c i arg3 harg3 arg4 harg4 arg5 harg5 arg6 harg6 hc0 hc1 x0 x1 xs0)]
  unfold kernelRun1_C
  dsimp only
  try sl_unfold_words
  rw [View.canon_unit_zero hz]
  simp only [View.readAt_eq_ld, harg3.read_unread, harg4.read_unread, harg6.read_unread, View.ld_unit_zero (S := S1024x512) hz, View.ld_unit_zero (S := S2048x512) hz, View.ld_unit_zero (S := S1024x2048) hz]

theorem outC_eq (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i) (x0 : Vec F S1024x512 .bf16) (x1 : Vec F S2048x512 .bf16) (xs0 : Vec F S1024x2048 .f32) :
    out1_C_2 c i arg3 harg3 arg4 harg4 arg5 harg5 arg6 harg6 hc0 hc1 x0 x1 xs0 = k1_pay2 x0 x1 xs0 := by
  unfold out1_C_2
  rw [View.read_writes_eq_canon _ _ _ (cover1_C_2 c i arg3 harg3 arg4 harg4 arg5 harg5 arg6 harg6 hc0 hc1 x0 x1 xs0)]
  unfold kernelRun1_C
  dsimp only
  try sl_unfold_words
  rw [View.canon_unit_zero hz, View.readCov_unit_zero (S := S1024x2048) _ hz]
  simp only [View.readAt_eq_ld, harg3.read_unread, harg4.read_unread, harg6.read_unread, View.ld_unit_zero (S := S1024x512) hz, View.ld_unit_zero (S := S2048x512) hz, View.ld_unit_zero (S := S1024x2048) hz]

end Cert.KernelIdeal.Hand

end
-- ==== Proof.LibHiLoMatmul.lean ====
/-
  A matrix product `A · Bᵀ` of an `[m, k]` by an `[n, k]` operand (both contracted on their last axis) that is computed
  as THREE products into a zero accumulator, each operand split into a leading part and the remainder left after taking
  the leading part away,

      lead A · lead Bᵀ  +  lead A · rest Bᵀ  +  rest A · lead Bᵀ,

  read at an index over the extended reals. There the narrowing to the leading part is the identity, so the remainder
  of a FINITE entry is `a − a = 0`, the two mixed products vanish term by term (`a · 0 = 0`, `0 · b = 0`), and the
  three-product sum at `(p, q)` is the plain inner product `∑ c, A (p, c) · B (q, c)`. Proved here:

  • `sub_self_of_real`: a finite extended real minus itself is zero;
  • `matmul_nt_zero_apply`: one such product into the zero splat, read at `(p, q)`, is the sum over the contracted
    coordinate `c : Fin k` of `A (p, c) · B (q, c)`;
  • `three_matmul_apply`: the three-product sum above, for operands with finite entries, is that same inner product;
  • `sign_select_apply`: the vector term `select (|x| > 0) (select (x < 0) (−1) 1) x` read at an index is `Ideal.sign`
    of the element, at every extended real.
-/
import Idealize.ShloMosaic.Lib.ValueLayout
import Idealize.ShloMosaic.PureOps.Ideal.Laws

namespace Cert.HiLoMatmul

open Idealize.ShloMosaic Idealize.ShloMosaic.ValueIdx

/-- A finite extended real minus itself is zero (which fails at the two infinities). -/
theorem sub_self_of_real {x : EReal} (h : ∃ r : ℝ, x = (r : EReal)) : x - x = 0 := by
  obtain ⟨r, rfl⟩ := h
  rw [← EReal.coe_sub, sub_self, EReal.coe_zero]

/-- The dimension numbers of `A · Bᵀ`: both operands contracted on axis 1, rows of each kept. -/
abbrev ntDims {m k n : ℕ} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- One product `A · Bᵀ` into the zero splat, read at `(p, q)`: the sum over the contracted coordinate of the
    products of the entries. -/
theorem matmul_nt_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (p : Fin m) (q : Fin n) :
    FloatOps.matmul (ntDims w) prec A B (constant (F := Ideal) ⟨2, ![m, n]⟩ .f32 0x00000000#32) (ix2 p q)
      = ∑ c : Fin k, A (ix2 p c) * B (ix2 q c) := by
  rw [Ideal.matmul_constant_zero_apply, ← Equiv.sum_comp (contrEquiv1 (ntDims w) k rfl rfl).symm]
  refine Finset.sum_congr rfl fun c _ => ?_
  have hc := contrEquiv1_symm_val (ntDims w) k rfl rfl c
  have hl : (ntDims w).lhsIdx (ix2 p q) ((contrEquiv1 (ntDims w) k rfl rfl).symm c) = ix2 p c := by
    funext ax; apply Fin.ext
    match ax with
    | ⟨0, _⟩ => simp [DotDims.lhsIdx]; rfl
    | ⟨1, _⟩ => simp [DotDims.lhsIdx]; exact hc
  have hr : (ntDims w).rhsIdx (ix2 p q) ((contrEquiv1 (ntDims w) k rfl rfl).symm c) = ix2 q c := by
    funext ax; apply Fin.ext
    match ax with
    | ⟨0, _⟩ => simp [DotDims.rhsIdx]; rfl
    | ⟨1, _⟩ => simp [DotDims.rhsIdx]; exact hc
  rw [hl, hr]

/-- The three-product sum: with the narrowing the identity and every entry finite, the two products against a
    remainder are sums of zeros, and what is left is the inner product. -/
theorem three_matmul_apply {m k n : ℕ} {φ : FTy}
    (w : DotDims.WF ⟨2, ![m, k]⟩ ⟨2, ![n, k]⟩ ⟨2, ![m, n]⟩ [1] [1] [0] [0] [] [])
    (prec : Option ContractPrecision) (hlt : φ.bits < FTy.bits .f32)
    (A : FVec Ideal ⟨2, ![m, k]⟩ .f32) (B : FVec Ideal ⟨2, ![n, k]⟩ .f32)
    (hA : ∀ j, ∃ r : ℝ, A j = (r : EReal)) (hB : ∀ j, ∃ r : ℝ, B j = (r : EReal)) (p : Fin m) (q : Fin n) :
    addf (addf
        (matmul (ntDims w) prec (truncf φ A hlt) (truncf φ B hlt) (constant ⟨2, ![m, n]⟩ .f32 0x00000000#32))
        (matmul (ntDims w) prec (truncf φ A hlt) (truncf φ (subf B B) hlt) (constant ⟨2, ![m, n]⟩ .f32 0x00000000#32)))
        (matmul (ntDims w) prec (truncf φ (subf A A) hlt) (truncf φ B hlt) (constant ⟨2, ![m, n]⟩ .f32 0x00000000#32))
        (ix2 p q)
      = ∑ c : Fin k, A (ix2 p c) * B (ix2 q c) := by
  rw [addf_apply, addf_apply]
  simp only [matmul]
  rw [matmul_nt_zero_apply, matmul_nt_zero_apply, matmul_nt_zero_apply]
  have h2 : ∑ c : Fin k, (truncf φ A hlt : FVec Ideal _ φ) (ix2 p c) * (truncf φ (subf B B) hlt : FVec Ideal _ φ) (ix2 q c) = 0 :=
    Finset.sum_eq_zero fun c _ => by
      rw [truncf_apply, truncf_apply, subf_apply, sub_self_of_real (hB _), mul_zero]
  have h3 : ∑ c : Fin k, (truncf φ (subf A A) hlt : FVec Ideal _ φ) (ix2 p c) * (truncf φ B hlt : FVec Ideal _ φ) (ix2 q c) = 0 :=
    Finset.sum_eq_zero fun c _ => by
      rw [truncf_apply, truncf_apply, subf_apply, sub_self_of_real (hA _), zero_mul]
  rw [h2, h3, add_zero, add_zero]
  exact Finset.sum_congr rfl fun c _ => by rw [truncf_apply, truncf_apply]

/-- The term printed for a sign, `select (|x| > 0) (select (x < 0) (−1) 1) x` over a whole `f32` vector, read at an
    index: `Ideal.sign` of the element, the two infinities and zero included. -/
theorem sign_select_apply {s : Shape} (x : FVec Ideal s .f32) (i : s.Idx) :
    select (cmpf .ogt (absf x) (broadcast s (Scalar.ofBits .f32 0x00000000#32)))
        (select (cmpf .olt x (constant s .f32 0x00000000#32)) (constant s .f32 0xBF800000#32)
          (constant s .f32 0x3F800000#32)) x i
      = Ideal.sign (x i) :=
  Ideal.jnp_sign_eq_sign_f32 (x i)

end Cert.HiLoMatmul
-- ==== Proof.TileSum.lean ====
/- Sums over the 4096 columns cut into 8 tiles of 512 consecutive columns, and the running sum that adds one tile
   at a time starting from zero.  Pure algebra over an additive commutative monoid. -/
import Mathlib.Algebra.BigOperators.Fin
import Mathlib.Logic.Equiv.Fin.Basic
import Mathlib.Tactic

namespace Cert.TileSum

open Finset

variable {M : Type*} [AddCommMonoid M]

/-- The general form: a sum over `n * m` indices is the sum over `n` tiles of the sums over the `m` positions
    inside a tile, position `c` of tile `k` being index `k * m + c`. -/
theorem sum_tiles_general (n m : ℕ) (f : Fin (n * m) → M) :
    (∑ k : Fin n, ∑ c : Fin m, f ⟨k.val * m + c.val, by
        have hk := k.isLt; have hc := c.isLt
        calc k.val * m + c.val < k.val * m + m := by omega
          _ = (k.val + 1) * m := by ring
          _ ≤ n * m := Nat.mul_le_mul_right m hk⟩) = ∑ d : Fin (n * m), f d := by
  rw [← Fintype.sum_prod_type']
  refine Fintype.sum_equiv (finProdFinEquiv (m := n) (n := m)) _ _ (fun x => ?_)
  congr 1
  apply Fin.ext
  simp [finProdFinEquiv]
  ring

/-- The 4096 columns as 8 tiles of 512: column `k * 512 + c` is position `c` of tile `k`. -/
theorem sum_tiles (f : Fin 4096 → M) :
    (∑ k : Fin 8, ∑ c : Fin 512, f ⟨k.val * 512 + c.val, by have := k.isLt; have := c.isLt; omega⟩)
      = ∑ d : Fin 4096, f d :=
  sum_tiles_general 8 512 f

/-- Eight tiles added one after the other to zero give the sum of the eight tiles. -/
theorem foldl_tiles (T : Fin 8 → M) :
    ((((((((0 + T 0) + T 1) + T 2) + T 3) + T 4) + T 5) + T 6) + T 7) = ∑ k : Fin 8, T k := by
  rw [Fin.sum_univ_eight, zero_add]

/-- The running sum: start from `0 + T 0`, then add `T (n+1)` at step `n+1`. -/
def acc (T : ℕ → M) : ℕ → M
  | 0 => 0 + T 0
  | n + 1 => acc T n + T (n + 1)

/-- Any sequence obeying the running-sum recursion is the partial sum. -/
theorem running_sum (T a : ℕ → M) (h0 : a 0 = 0 + T 0) (hs : ∀ n, a (n + 1) = a n + T (n + 1)) (n : ℕ) :
    a n = ∑ k ∈ range (n + 1), T k := by
  induction n with
  | zero => rw [h0, zero_add, sum_range_one]
  | succ n ih => rw [hs, ih, sum_range_succ _ (n + 1)]

theorem acc_eq (T : ℕ → M) (n : ℕ) : acc T n = ∑ k ∈ range (n + 1), T k :=
  running_sum T (acc T) rfl (fun _ => rfl) n

/-- The running sum over the eight tiles, indexed by `Fin 8`. -/
theorem acc_seven (T : ℕ → M) : acc T 7 = ∑ k : Fin 8, T k.val := by
  rw [acc_eq, Fin.sum_univ_eq_sum_range (fun k => T k) 8]

end Cert.TileSum
-- ==== Proof.IVal1b.lean ====
/- Region 1 at the extended reals: the array it leaves is the matrix product of the two arrays it reads, each row
   of the first against each row of the second. Point t of the grid handles rows (t / 16)·1024 … of the first array,
   rows ((t / 8) mod 2)·2048 … of the second and columns (t mod 8)·512 … of both; its accumulator after the point is the
   running sum, over the column tiles up to t mod 8, of the tiles' partial inner products, started from zero; at
   t mod 8 = 7 that is the whole inner product over the 4096 columns, and it is what the point writes back. -/
import proofs.«104997_j10376640987248_2_alg».proof.Proof.IVal1a
import proofs.«104997_j10376640987248_2_alg».proof.Proof.LibHiLoMatmul
import proofs.«104997_j10376640987248_2_alg».proof.Proof.TileSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The zero splat read at an index. -/
theorem pay1_apply (p : Fin 1024) (q : Fin 2048) : (k1_pay1 (F := Ideal) : S1024x2048.Idx → EReal) (ix2 p q) = 0 := by
  unfold k1_pay1
  simp only [shapeCast_self]
  show Ideal.ofBits .f32 0x00000000#32 = 0
  exact Ideal.ofBits_zero_f32

/-- The body's update read at an index: the accumulator's entry plus the inner product of row p of the first block
    with row q of the second. -/
theorem pay2_apply (x0 : Vec Ideal S1024x512 .bf16) (x1 : Vec Ideal S2048x512 .bf16) (acc : Vec Ideal S1024x2048 .f32) (p : Fin 1024) (q : Fin 2048) :
    (k1_pay2 (F := Ideal) x0 x1 acc : S1024x2048.Idx → EReal) (ix2 p q) = (acc (ix2 p q) : EReal) + ∑ cc : Fin 512, (x0 (ix2 p cc) : EReal) * (x1 (ix2 q cc) : EReal) := by
  unfold k1_pay2
  simp only [shapeCast_self]
  show (acc (ix2 p q) : EReal) + FloatOps.matmul (F := Ideal) dot_S1024x512_S2048x512_S1024x2048_1_1_0_0_n_n none x0 x1 (constant (F := Ideal) S1024x2048 .f32 0x00000000#32) (ix2 p q) = _
  exact congrArg (acc (ix2 p q) + ·) (Cert.HiLoMatmul.matmul_nt_zero_apply Facts₀.dot_S1024x512_S2048x512_S1024x2048_1_1_0_0_n_n_wf none x0 x1 p q)

/-- The three windows' block indices at point t, decided over the grid. -/
theorem idx1_facts : ∀ t : Fin cfg1.N, win1_0.index t (0 : Fin 2) = t.val / 16 ∧ win1_0.index t (1 : Fin 2) = t.val % 8
    ∧ win1_1.index t (0 : Fin 2) = (t.val / 8) % 2 ∧ win1_1.index t (1 : Fin 2) = t.val % 8
    ∧ win1_2.index t (0 : Fin 2) = t.val / 16 ∧ win1_2.index t (1 : Fin 2) = (t.val / 8) % 2 :=
  (by decide +kernel : ∀ t : Fin grid1.N, _)

theorem iblk1_0_apply (c : Dev nD) (t : Fin cfg1.N) (p : Fin 1024) (cc : Fin 512) (k : S4096x4096.Idx)
    (hk0 : (k 0).val = (t.val / 16) * 1024 + p.val) (hk1 : (k 1).val = (t.val % 8) * 512 + cc.val) :
    (iblk1 V c 0 t : Vec Ideal S1024x512 .bf16) (ix2 p cc) = (V c main_v1 : S4096x4096.Idx → EReal) k := by
  obtain ⟨e0, e1, -⟩ := idx1_facts t
  unfold iblk1
  rw [View.read_apply]
  show V c main_v1 _ = V c main_v1 _
  congr 1
  funext a
  apply Fin.ext
  match a with
  | ⟨0, _⟩ => show win1_0.index t 0 * 1024 + 1 * p.val = (k 0).val; rw [e0, hk0]; omega
  | ⟨1, _⟩ => show win1_0.index t 1 * 512 + 1 * cc.val = (k 1).val; rw [e1, hk1]; omega

theorem iblk1_1_apply (c : Dev nD) (t : Fin cfg1.N) (q : Fin 2048) (cc : Fin 512) (k : S4096x4096.Idx)
    (hk0 : (k 0).val = ((t.val / 8) % 2) * 2048 + q.val) (hk1 : (k 1).val = (t.val % 8) * 512 + cc.val) :
    (iblk1 V c 1 t : Vec Ideal S2048x512 .bf16) (ix2 q cc) = (V c main_v2 : S4096x4096.Idx → EReal) k := by
  obtain ⟨-, -, e2, e3, -⟩ := idx1_facts t
  unfold iblk1
  rw [View.read_apply]
  show V c main_v2 _ = V c main_v2 _
  congr 1
  funext a
  apply Fin.ext
  match a with
  | ⟨0, _⟩ => show win1_1.index t 0 * 2048 + 1 * q.val = (k 0).val; rw [e2, hk0]; omega
  | ⟨1, _⟩ => show win1_1.index t 1 * 512 + 1 * cc.val = (k 1).val; rw [e3, hk1]; omega

/-- The two arrays the region reads, as total functions of a row and a column number (zero outside the array). -/
def rdA (c : Dev nD) (r d : ℕ) : EReal := if h : r < 4096 ∧ d < 4096 then (V c main_v1 : S4096x4096.Idx → EReal) (ix2 ⟨r, h.1⟩ ⟨d, h.2⟩) else 0
def rdB (c : Dev nD) (r d : ℕ) : EReal := if h : r < 4096 ∧ d < 4096 then (V c main_v2 : S4096x4096.Idx → EReal) (ix2 ⟨r, h.1⟩ ⟨d, h.2⟩) else 0

/-- Column tile k's share of the inner product of row r of the first array with row o of the second. -/
def tile (c : Dev nD) (r o k : ℕ) : EReal := ∑ cc : Fin 512, rdA V c r (k * 512 + cc.val) * rdB V c o (k * 512 + cc.val)

theorem iblk1_0_rd (c : Dev nD) (t : Fin cfg1.N) (p : Fin 1024) (cc : Fin 512) :
    (iblk1 V c 0 t : Vec Ideal S1024x512 .bf16) (ix2 p cc) = rdA V c ((t.val / 16) * 1024 + p.val) ((t.val % 8) * 512 + cc.val) := by
  have hN : t.val < 64 := lt_of_lt_of_eq t.isLt N_1
  have hb : (t.val / 16) * 1024 + p.val < 4096 ∧ (t.val % 8) * 512 + cc.val < 4096 := by have := p.isLt; have := cc.isLt; omega
  unfold rdA; rw [dif_pos hb]
  exact iblk1_0_apply V c t p cc _ rfl rfl

theorem iblk1_1_rd (c : Dev nD) (t : Fin cfg1.N) (q : Fin 2048) (cc : Fin 512) :
    (iblk1 V c 1 t : Vec Ideal S2048x512 .bf16) (ix2 q cc) = rdB V c (((t.val / 8) % 2) * 2048 + q.val) ((t.val % 8) * 512 + cc.val) := by
  have hN : t.val < 64 := lt_of_lt_of_eq t.isLt N_1
  have hb : ((t.val / 8) % 2) * 2048 + q.val < 4096 ∧ (t.val % 8) * 512 + cc.val < 4096 := by have := q.isLt; have := cc.isLt; omega
  unfold rdB; rw [dif_pos hb]
  exact iblk1_1_apply V c t q cc _ rfl rfl

/-- One update of the accumulator at point t, read at (p, q): what it held plus the point's column tile. -/
theorem step_apply (c : Dev nD) (t : Fin cfg1.N) (acc : Vec Ideal S1024x2048 .f32) (p : Fin 1024) (q : Fin 2048) :
    (k1_pay2 (F := Ideal) (iblk1 V c 0 t) (iblk1 V c 1 t) acc : S1024x2048.Idx → EReal) (ix2 p q)
      = (acc (ix2 p q) : EReal) + tile V c ((t.val / 16) * 1024 + p.val) (((t.val / 8) % 2) * 2048 + q.val) (t.val % 8) := by
  rw [pay2_apply]
  unfold tile
  exact congrArg (acc (ix2 p q) + ·) (Finset.sum_congr rfl fun cc _ => by rw [iblk1_0_rd, iblk1_1_rd])

/-- THE ACCUMULATOR after position n: the running sum of the column tiles 0 … n mod 8 of the point's rows. -/
theorem acc_at (c : Dev nD) : ∀ (n : ℕ) (hn : n < cfg1.N) (p : Fin 1024) (q : Fin 2048),
    ((outsAt1 V c n hn).2 : S1024x2048.Idx → EReal) (ix2 p q)
      = Cert.TileSum.acc (fun k => tile V c ((n / 16) * 1024 + p.val) (((n / 8) % 2) * 2048 + q.val) k) (n % 8) := by
  intro n
  induction n with
  | zero =>
    intro hn p q
    have e := congrArg Prod.snd (outsAt1_A V c ⟨0, hn⟩ (Nat.zero_mod _) (show ¬ ((0 : ℕ) % 8 = 7) by decide))
    dsimp only at e
    rw [e, soutA_eq, step_apply, pay1_apply]
    rfl
  | succ n ih =>
    intro hn p q
    have hN : n + 1 < 64 := lt_of_lt_of_eq hn N_1
    by_cases h0 : (n + 1) % 8 = 0
    · have h1 : ¬(n + 1) % 8 = 7 := by omega
      have e := congrArg Prod.snd (outsAt1_A V c ⟨n + 1, hn⟩ h0 h1)
      dsimp only at e
      rw [e, soutA_eq, step_apply, pay1_apply]
      show 0 + tile V c _ _ ((n + 1) % 8) = Cert.TileSum.acc _ ((n + 1) % 8)
      rw [h0]
      rfl
    · obtain ⟨k, hk⟩ : ∃ k, (n + 1) % 8 = k + 1 := ⟨(n + 1) % 8 - 1, by omega⟩
      have e1 : n / 16 = (n + 1) / 16 := by omega
      have e2 : (n / 8) % 2 = ((n + 1) / 8) % 2 := by omega
      have e3 : n % 8 = k := by omega
      have ih' := ih (Nat.lt_of_succ_lt hn) p q
      rw [e1, e2, e3] at ih'
      have hstep : ∀ prev : Vec Ideal S1024x2048 .f32, (prev (ix2 p q) : EReal) = Cert.TileSum.acc (fun k => tile V c (((n + 1) / 16) * 1024 + p.val) ((((n + 1) / 8) % 2) * 2048 + q.val) k) k →
          (k1_pay2 (F := Ideal) (iblk1 V c 0 ⟨n + 1, hn⟩) (iblk1 V c 1 ⟨n + 1, hn⟩) prev : S1024x2048.Idx → EReal) (ix2 p q)
            = Cert.TileSum.acc (fun k => tile V c (((n + 1) / 16) * 1024 + p.val) ((((n + 1) / 8) % 2) * 2048 + q.val) k) ((n + 1) % 8) := by
        intro prev hprev
        rw [step_apply, hprev]
        show _ + tile V c _ _ ((n + 1) % 8) = Cert.TileSum.acc _ ((n + 1) % 8)
        rw [hk]
        rfl
      by_cases h1 : (n + 1) % 8 = 7
      · have e := congrArg Prod.snd (outsAt1_C V c ⟨n + 1, hn⟩ h0 h1)
        dsimp only at e
        rw [e, soutC_eq]
        exact hstep _ ih'
      · have e := congrArg Prod.snd (outsAt1_B V c ⟨n + 1, hn⟩ h0 h1)
        dsimp only at e
        rw [e, soutB_eq]
        exact hstep _ ih'

/-- At a point with t mod 8 = 7 the output block receives what the accumulator then holds. -/
theorem out_eq_acc (c : Dev nD) (t : Fin cfg1.N) (h1 : t.val % 8 = 7) :
    (outsAt1 V c t.val t.isLt).1 = (outsAt1 V c t.val t.isLt).2 := by
  have h0 : ¬t.val % 8 = 0 := by omega
  rw [outsAt1_C V c t h0 h1]
  dsimp only
  rw [outC_eq, soutC_eq]

/-- The whole-array function: entry (r, o) is the inner product of row r of the first array with row o of the second. -/
def G1 (c : Dev nD) : S4096x4096.Idx → EReal := fun j => ∑ d : Fin 4096, rdA V c (j 0).val d.val * rdB V c (j 1).val d.val

/-- What the output block holds after a point with t mod 8 = 7: the whole inner products of the point's rows. -/
theorem out_at (c : Dev nD) (t : Fin cfg1.N) (h1 : t.val % 8 = 7) (p : Fin 1024) (q : Fin 2048) :
    ((outsAt1 V c t.val t.isLt).1 : S1024x2048.Idx → EReal) (ix2 p q)
      = ∑ d : Fin 4096, rdA V c ((t.val / 16) * 1024 + p.val) d.val * rdB V c (((t.val / 8) % 2) * 2048 + q.val) d.val := by
  rw [out_eq_acc V c t h1, acc_at V c t.val t.isLt p q, h1, Cert.TileSum.acc_seven]
  unfold tile
  exact Cert.TileSum.sum_tiles (fun d : Fin 4096 => rdA V c ((t.val / 16) * 1024 + p.val) d.val * rdB V c (((t.val / 8) % 2) * 2048 + q.val) d.val)

end Cert.KernelIdeal.Hand

end
-- ==== Proof.IVal1c.lean ====
/- Region 1 at the extended reals, from blocks to the array: the point with t mod 8 = 7 writes back block
   (t / 16, (t / 8) mod 2) of the whole-array function G1; these eight blocks tile the 4096×4096 result, the block holding
   row r and column o being written at point (r / 1024)·16 + (o / 2048)·8 + 7. -/
import proofs.«104997_j10376640987248_2_alg».proof.Proof.IVal1b

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- What a writing point writes back is its block of `G1`. -/
theorem flushed1_eq (c : Dev nD) (t : Fin cfg1.N) (hf : (cfg1.win 2).flush t = true) :
    (dat1 V c).flushed 2 t = ((cfg1.win 2).blk t).view.read (Elt Ideal) (G1 V c) := by
  have h1 : t.val % 8 = 7 := (flush1_2 t).mp hf
  obtain ⟨-, -, -, -, e4, e5⟩ := idx1_facts t
  show (cfg1.win 2).cut (grid1.coords t) ((dat1 V c).after 2 t) = _
  rw [after1_2]
  funext j
  obtain ⟨p, q, rfl⟩ : ∃ (p : Fin 1024) (q : Fin 2048), j = ix2 p q := ⟨j 0, j 1, eq_ix2 j⟩
  show ((outsAt1 V c t.val t.isLt).1 : S1024x2048.Idx → EReal) (ix2 p q) = G1 V c (((cfg1.win 2).blk t).view.emb (ix2 p q))
  rw [out_at V c t h1 p q]
  unfold G1
  have hv0 : ((((cfg1.win 2).blk t).view.emb (ix2 p q)) 0).val = (t.val / 16) * 1024 + p.val := by
    show win1_2.index t 0 * 1024 + 1 * p.val = _; rw [e4]; omega
  have hv1 : ((((cfg1.win 2).blk t).view.emb (ix2 p q)) 1).val = ((t.val / 8) % 2) * 2048 + q.val := by
    show win1_2.index t 1 * 2048 + 1 * q.val = _; rw [e5]; omega
  rw [hv0, hv1]

/-- An index of the array is in point t's block iff each coordinate is in the block's range on its axis. -/
theorem mem_blk1 (t : Fin cfg1.N) (i : S4096x4096.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v3).slice (win1_2.rect t)).set ↔ _
  rw [View.set_slice_whole, Rect.mem_set_unit]
  exact Iff.rfl

/-- THE ARRAY region 1 leaves: `G1` of the arrays it read. -/
theorem final1 (c : Dev nD) : (dat1 V c).arrAt 2 cfg1.N = G1 V c :=
  (dat1 V c).arrAt_eq_of_cover 2 (G1 V c) (flushed1_eq V c) fun i => by
    have h0 : (i 0).val < 4096 := (i 0).isLt
    have h1 : (i 1).val < 4096 := (i 1).isLt
    have hlt : ((i 0).val / 1024) * 16 + ((i 1).val / 2048) * 8 + 7 < cfg1.N := by rw [show cfg1.N = 64 from N_1]; omega
    refine ⟨⟨((i 0).val / 1024) * 16 + ((i 1).val / 2048) * 8 + 7, hlt⟩, (flush1_2 _).mpr (by show (((i 0).val / 1024) * 16 + ((i 1).val / 2048) * 8 + 7) % 8 = 7; omega), ?_⟩
    rw [mem_blk1]
    obtain ⟨-, -, -, -, e4, e5⟩ := idx1_facts ⟨((i 0).val / 1024) * 16 + ((i 1).val / 2048) * 8 + 7, hlt⟩
    intro a
    match a with
    | ⟨0, _⟩ =>
      show win1_2.index _ 0 * 1024 ≤ (i 0).val ∧ (i 0).val < win1_2.index _ 0 * 1024 + 1024
      rw [e4]; show (((i 0).val / 1024) * 16 + ((i 1).val / 2048) * 8 + 7) / 16 * 1024 ≤ (i 0).val ∧ (i 0).val < (((i 0).val / 1024) * 16 + ((i 1).val / 2048) * 8 + 7) / 16 * 1024 + 1024
      omega
    | ⟨1, _⟩ =>
      show win1_2.index _ 1 * 2048 ≤ (i 1).val ∧ (i 1).val < win1_2.index _ 1 * 2048 + 2048
      rw [e5]; show ((((i 0).val / 1024) * 16 + ((i 1).val / 2048) * 8 + 7) / 8) % 2 * 2048 ≤ (i 1).val ∧ (i 1).val < ((((i 0).val / 1024) * 16 + ((i 1).val / 2048) * 8 + 7) / 8) % 2 * 2048 + 2048
      omega

end Cert.KernelIdeal.Hand

end
-- ==== Proof.Spec.lean ====
/- The specification both programs are compared against, over the extended reals.

   A weight matrix `w` of 4096 rows and 4096 columns is cut, along each row, into 32 groups of 128 consecutive
   columns. A group's scale is the mean of the absolute values of its 128 entries, floored at the positive constant
   `eps`. An entry above half the scale is replaced by the scale, an entry below minus half the scale by minus the
   scale, every other entry by zero: the groupwise ternary quantization `wq`. The result of the layer at row `r` of the
   flattened activations and output feature `o` is the inner product of row `r` of `x` with row `o` of `wq`. -/
import Idealize.ShloMosaic.PureOps.Ideal
import Idealize.ShloMosaic.PureOps.Ideal.Laws

noncomputable section

namespace Cert.Spec

open Idealize.ShloMosaic

/-- The constants, kept as the words both programs print. -/
abbrev zero : EReal := Ideal.ofBits .f32 0x00000000#32
abbrev half : EReal := Ideal.ofBits .f32 0x3F000000#32
abbrev c128 : EReal := Ideal.ofBits .f32 0x43000000#32
abbrev eps : EReal := Ideal.ofBits .f32 0x322BCC77#32

/-- Column `g * 128 + l`: lane `l` of group `g`. -/
def col (g : Fin 32) (l : Fin 128) : Fin 4096 := ⟨g.val * 128 + l.val, by have := g.isLt; have := l.isLt; omega⟩

/-- The group of column `d`. -/
def grp (d : Fin 4096) : Fin 32 := ⟨d.val / 128, by have := d.isLt; omega⟩

/-- The scale of group `g` of row `o`: the mean absolute value of the group's entries, floored at `eps`. -/
def scale (w : Fin 4096 → Fin 4096 → EReal) (o : Fin 4096) (g : Fin 32) : EReal :=
  max (Ideal.div (∑ l : Fin 128, max (w o (col g l)) (-(w o (col g l)))) c128) eps

/-- The ternary-quantized weight at row `o`, column `d`, in the threshold form: the entry compared with ± half its
    group's scale, and the scale, its negative or zero selected. -/
def wq (w : Fin 4096 → Fin 4096 → EReal) (o d : Fin 4096) : EReal :=
  Scalar.select (Ideal.cmp .ogt (w o d) (half * scale w o (grp d))) (scale w o (grp d))
    (Scalar.select (Ideal.cmp .olt (w o d) (zero - half * scale w o (grp d))) (zero - scale w o (grp d)) zero)

/-- The layer's result at row `r` (of the 4096 flattened rows) and output feature `o`. -/
def out (x w : Fin 4096 → Fin 4096 → EReal) (r o : Fin 4096) : EReal :=
  ∑ d : Fin 4096, x r d * wq w o d

end Cert.Spec

end
-- ==== Proof.IBridge.lean ====
/- The kernel program's result at the extended reals, read at an index: with the first array region 1 reads being
   the activations flattened to 4096 rows (the change of float format is the identity) and the second the quantized
   weight, entry (b, s, o) of the reshaped product is the specification's inner product of row b·2048 + s of the
   activations with row o of the quantized weight. -/
import proofs.«104997_j10376640987248_2_alg».proof.Proof.IVal1c
import proofs.«104997_j10376640987248_2_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The activations as a function of the flattened row and the column. -/
def rows (x : S2x2048x4096.Idx → EReal) (r d : Fin 4096) : EReal :=
  x (ix3 (⟨r.val / 2048, by have := r.isLt; omega⟩ : Fin 2) (⟨r.val % 2048, Nat.mod_lt _ (by norm_num)⟩ : Fin 2048) d)

theorem G1_spec (c : Dev nD) (x : S2x2048x4096.Idx → EReal) (w : S4096x4096.Idx → EReal)
    (hA : (V c main_v1 : S4096x4096.Idx → EReal) = truncf (F := Ideal) .bf16 (shapeCast S4096x4096 (x : FVec Ideal S2x2048x4096 .f32) shapeCasts_S2x2048x4096_S4096x4096) bitsLt_bf16_f32)
    (hB : ∀ o d : Fin 4096, (V c main_v2 : S4096x4096.Idx → EReal) (ix2 o d) = Cert.Spec.wq (fun o d => w (ix2 o d)) o d)
    (b : Fin 2) (s : Fin 2048) (o : Fin 4096) :
    (shapeCast S2x2048x4096 (G1 V c : FVec Ideal S4096x4096 .f32) shapeCasts_S4096x4096_S2x2048x4096 : S2x2048x4096.Idx → EReal) (ix3 b s o)
      = Cert.Spec.out (rows x) (fun o d => w (ix2 o d)) ⟨b.val * 2048 + s.val, by have := b.isLt; have := s.isLt; omega⟩ o := by
  have hr : b.val * 2048 + s.val < 4096 := by have := b.isLt; have := s.isLt; omega
  rw [shapeCast_apply (G1 V c : FVec Ideal S4096x4096 .f32) shapeCasts_S4096x4096_S2x2048x4096 (ix3 b s o) (ix2 ⟨b.val * 2048 + s.val, hr⟩ o)
    (by rewrite [Shape.rowMajor_val_two, Shape.rowMajor_val_three]; rfl)]
  unfold G1 Cert.Spec.out
  refine Finset.sum_congr rfl fun d _ => ?_
  have hd : d.val < 4096 := d.isLt
  have ho : o.val < 4096 := o.isLt
  have eA : rdA V c (b.val * 2048 + s.val) d.val = rows x ⟨b.val * 2048 + s.val, hr⟩ d := by
    unfold rdA; rw [dif_pos ⟨hr, hd⟩, hA]
    show FloatOps.truncf (F := Ideal) .bf16 bitsLt_bf16_f32 (shapeCast S4096x4096 (x : FVec Ideal S2x2048x4096 .f32) shapeCasts_S2x2048x4096_S4096x4096 (ix2 ⟨b.val * 2048 + s.val, hr⟩ ⟨d.val, hd⟩)) = _
    rw [Ideal.truncf_def]
    unfold rows
    exact shapeCast_apply (x : FVec Ideal S2x2048x4096 .f32) shapeCasts_S2x2048x4096_S4096x4096 _ _
      (by rewrite [Shape.rowMajor_val_three, Shape.rowMajor_val_two]
          show ((b.val * 2048 + s.val) / 2048 * 2048 + (b.val * 2048 + s.val) % 2048) * 4096 + d.val = (b.val * 2048 + s.val) * 4096 + d.val
          omega)
  have eB : rdB V c o.val d.val = Cert.Spec.wq (fun o d => w (ix2 o d)) o d := by
    unfold rdB; rw [dif_pos ⟨ho, hd⟩]
    exact hB o d
  show rdA V c (b.val * 2048 + s.val) d.val * rdB V c o.val d.val = _
  rw [eA, eB]

/-- The specification's result as an array of the result's shape: entry (b, s, o) is the inner product of row
    b·2048 + s of the activations with row o of the quantized weight. -/
def specRes (x : S2x2048x4096.Idx → EReal) (w : S4096x4096.Idx → EReal) : S2x2048x4096.Idx → EReal := fun i =>
  Cert.Spec.out (rows x) (fun o d => w (ix2 o d))
    ⟨(i 0).val * 2048 + (i 1).val, by have h0 : (i 0).val < 2 := (i 0).isLt; have h1 : (i 1).val < 2048 := (i 1).isLt; omega⟩
    ⟨(i 2).val, (i 2).isLt⟩

end Cert.KernelIdeal.Hand

end
-- ==== Proof.IVal0.lean ====
/- Region 0 at the ideal instance: the array the quantization kernel leaves is the groupwise ternary quantization of
   the array it read.

   The body's value at entry (p, q) of a 1024×512 block compares the entry with half the scale of its group — the 128
   consecutive columns 128·(q / 128) … 128·(q / 128) + 127 of row p — and selects the scale, its negative or zero. A
   group never straddles two blocks (512 = 4·128), so when the block is the part of the 4096×4096 weight at block row
   `bi`, block column `bj`, the value at (p, q) is the specification's quantized weight at (1024 bi + p, 512 bj + q).
   Grid point `t` of the 4×8 grid works on block row `t / 8`, block column `t % 8`; row r, column d of the array lies
   in the block of point (r / 1024)·8 + d / 512, so the 32 blocks cover the array and it ends holding the quantized
   weight everywhere. -/
import proofs.«104997_j10376640987248_2_alg».proof.Proof.IR0
import proofs.«104997_j10376640987248_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.Val0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open scoped BigOperators

variable {α : Type}

/-- Lane `l` of the group of 128 columns that holds column `q` of a 512-wide block. -/
def lane (q : Fin 512) (l : Fin 128) : Fin 512 := ⟨(q.val / 128) * 128 + l.val, by have := q.isLt; have := l.isLt; omega⟩

/-- The scale of one group: the mean absolute value of its 128 entries, floored at `eps`. -/
def gscale (g : Fin 128 → EReal) : EReal :=
  max (Ideal.div (∑ l : Fin 128, max (g l) (-(g l))) Spec.c128) Spec.eps

/-- An entry `x` against its group's scale `s`: `s` above half the scale, `-s` below minus half, else zero. -/
def tern (s x : EReal) : EReal :=
  Scalar.select (Ideal.cmp .ogt x (Spec.half * s)) s
    (Scalar.select (Ideal.cmp .olt x (Spec.zero - Spec.half * s)) (Spec.zero - s) Spec.zero)

/-- A 1024×512 block read as 1024×4×128: entry (p, g, l) is entry (p, 128 g + l). -/
theorem cast_split (x : S1024x512.Idx → α) (h : S1024x512.ShapeCasts S1024x4x128) (p : Fin 1024) (g : Fin 4) (l : Fin 128) :
    shapeCast S1024x4x128 x h (ix3 p g l) = x (ix2 p ⟨g.val * 128 + l.val, by have := g.isLt; have := l.isLt; omega⟩) :=
  shapeCast_apply x h _ _ (by
    rw [Shape.rowMajor_val_three, Shape.rowMajor_val_two]
    show p.val * 512 + (g.val * 128 + l.val) = (p.val * 4 + g.val) * 128 + l.val
    omega)

/-- And back: entry (p, q) of the 1024×512 reading is entry (p, q / 128, q % 128). -/
theorem cast_merge (x : S1024x4x128.Idx → α) (h : S1024x4x128.ShapeCasts S1024x512) (p : Fin 1024) (q : Fin 512) :
    shapeCast S1024x512 x h (ix2 p q) = x (ix3 p (⟨q.val / 128, by have := q.isLt; omega⟩ : Fin 4) (⟨q.val % 128, Nat.mod_lt _ (by decide)⟩ : Fin 128)) :=
  shapeCast_apply x h _ _ (by
    rw [Shape.rowMajor_val_three, Shape.rowMajor_val_two]
    show (p.val * 4 + q.val / 128) * 128 + q.val % 128 = p.val * 512 + q.val
    omega)

/-- A trailing unit axis added: entry (p, g, u) is entry (p, g). -/
theorem cast_unit (x : S1024x4.Idx → α) (h : S1024x4.ShapeCasts S1024x4x1) (p : Fin 1024) (g : Fin 4) (u : Fin 1) :
    shapeCast S1024x4x1 x h (ix3 p g u) = x (ix2 p g) :=
  shapeCast_apply x h _ _ (by
    have hu : u.val = 0 := by omega
    rw [Shape.rowMajor_val_three, Shape.rowMajor_val_two]
    show p.val * 4 + g.val = (p.val * 4 + g.val) * 1 + u.val
    omega)

/-- One value per group spread over the group's 128 lanes. -/
theorem spread (x : S1024x4x1.Idx → α) (h : S1024x4x1.Broadcasts S1024x4x128) (p : Fin 1024) (g : Fin 4) (l : Fin 128) :
    broadcastTo S1024x4x128 x h (ix3 p g l) = x (ix3 p g (0 : Fin 1)) := by
  refine broadcastTo_apply x h (ix3 p g l) (ix3 p g (0 : Fin 1)) fun ax => ?_
  match ax with
  | ⟨0, _⟩ => rfl
  | ⟨1, _⟩ => rfl
  | ⟨2, _⟩ => rfl

/-- The sum over the lane axis, group by group. -/
theorem lane_sum (v : FVec Ideal S1024x4x128 .f32) (h : S1024x4x128.Reduces [2] S1024x4) (hφ : FKind.Formats .f32)
    (hacc : (0x00000000#32 : BitVec 32) = 0x00000000#32) (p : Fin 1024) (g : Fin 4) :
    multiReduction .add [2] S1024x4 v 0x00000000#32 h hφ hacc (ix2 p g) = ∑ l : Fin 128, v (ix3 p g l) := by
  refine (Ideal.multiReduction_add_single v 0x00000000#32 h hφ hacc (ix2 p g)).trans ?_
  exact Finset.sum_congr rfl fun l _ => congrArg v (funext fun c => by
    match c with
    | ⟨0, _⟩ => rfl
    | ⟨1, _⟩ => rfl
    | ⟨2, _⟩ => rfl)

/-- The absolute value at an index, on the extended reals. -/
theorem absf_apply {s : Shape} {φ : FTy} (a : FVec Ideal s φ) (i : s.Idx) : absf a i = max (a i) (-(a i)) := rfl

/-- The body's value at entry (p, q) of the block: the entry against the scale of its group of 128 lanes. -/
theorem pay_apply (x0 : Vec Ideal S1024x512 .f32) (p : Fin 1024) (q : Fin 512) :
    (k0_pay1 x0 : S1024x512.Idx → EReal) (ix2 p q) = tern (gscale fun l => x0 (ix2 p (lane q l))) (x0 (ix2 p q)) := by
  unfold k0_pay1
  simp only [truncf_apply, cast_merge, select_apply, cmpf_apply, spread, shapeCast_self, subf_apply, mulf_apply, maximumf_apply, divf_apply, broadcast_apply, cast_unit, cast_split]
  rw [lane_sum]
  simp only [absf_apply, cast_split]
  have hq : (⟨q.val / 128 * 128 + q.val % 128, by have := q.isLt; omega⟩ : Fin 512) = q :=
    Fin.ext (by show q.val / 128 * 128 + q.val % 128 = q.val; omega)
  rw [hq]
  rfl

/-- When the block is the part of a 4096×4096 matrix `W` at block row `bi` and block column `bj`, the body's value at
    (p, q) is the quantized `W` at (1024 bi + p, 512 bj + q): a group of 128 columns lies inside one 512-wide block,
    so the group's scale reads the block only. -/
theorem pay_eq_wq (x0 : Vec Ideal S1024x512 .f32) (W : Fin 4096 → Fin 4096 → EReal) (bi bj : Nat) (hbi : bi < 4) (hbj : bj < 8)
    (hx : ∀ (p : Fin 1024) (q : Fin 512), x0 (ix2 p q)
      = W ⟨bi * 1024 + p.val, by have := p.isLt; omega⟩ ⟨bj * 512 + q.val, by have := q.isLt; omega⟩)
    (p : Fin 1024) (q : Fin 512) :
    (k0_pay1 x0 : S1024x512.Idx → EReal) (ix2 p q)
      = Spec.wq W ⟨bi * 1024 + p.val, by have := p.isLt; omega⟩ ⟨bj * 512 + q.val, by have := q.isLt; omega⟩ := by
  rw [pay_apply]
  have hcol : ∀ l : Fin 128, (⟨bj * 512 + (lane q l).val, by have := (lane q l).isLt; omega⟩ : Fin 4096)
      = Spec.col (Spec.grp ⟨bj * 512 + q.val, by have := q.isLt; omega⟩) l := fun l =>
    Fin.ext (by
      show bj * 512 + (q.val / 128 * 128 + l.val) = (bj * 512 + q.val) / 128 * 128 + l.val
      have := q.isLt; omega)
  unfold Spec.wq Spec.scale tern gscale
  simp only [hx, hcol]

/-- The block indices of both windows at grid point `t`: block row `t / 8`, block column `t % 8`. -/
theorem idx_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = t.val % 8 :=
  (by decide +kernel : ∀ t : Fin grid0.N, _)

/-- The grid has 32 points. -/
theorem lt_N (t : Fin cfg0.N) : t.val < 32 := Nat.lt_of_lt_of_eq t.isLt N_0

variable (V : (c : Dev nD) → (b : Ref sig .tc) → Buf (Elt Ideal) ((c : Thread nD τ).loc b))

/-- The weight as the region finds it, by row and column. -/
def Wt (c : Dev nD) : Fin 4096 → Fin 4096 → EReal := fun o d => (V c main_arg1 : S4096x4096.Idx → EReal) (ix2 o d)

/-- The input block at point `t` is the part of the weight at block row `t / 8`, block column `t % 8`. -/
theorem iblk_apply (c : Dev nD) (t : Fin cfg0.N) (p : Fin 1024) (q : Fin 512) :
    (iblk0 (F := Ideal) V c 0 t : Vec Ideal S1024x512 .f32) (ix2 p q)
      = Wt V c ⟨t.val / 8 * 1024 + p.val, by have := lt_N t; have := p.isLt; omega⟩
          ⟨t.val % 8 * 512 + q.val, by have := q.isLt; omega⟩ := by
  obtain ⟨e0, e1, -, -⟩ := idx_facts t
  unfold iblk0 Wt
  rw [View.read_apply]
  show V c main_arg1 _ = V c main_arg1 _
  congr 1
  funext a
  apply Fin.ext
  match a with
  | ⟨0, _⟩ => show win0_0.index t (0 : Fin 2) * 1024 + 1 * p.val = t.val / 8 * 1024 + p.val; rw [e0]; omega
  | ⟨1, _⟩ => show win0_0.index t (1 : Fin 2) * 512 + 1 * q.val = t.val % 8 * 512 + q.val; rw [e1]; omega

/-- The zero offsets, however spelt. -/
theorem hz : (![0, 0] : Fin 2 → Nat) = fun _ => 0 := funext fun a => by fin_cases a <;> rfl

/-- What the body leaves in the output block, entry by entry: its one store covers the block. -/
theorem out_at (x0 : Vec Ideal S1024x512 .f32) (p : Fin 1024) (q : Fin 512) :
    (out0_1 x0 : S1024x512.Idx → EReal) (ix2 p q) = (k0_pay1 x0 : S1024x512.Idx → EReal) (ix2 p q) := by
  unfold out0_1
  rw [View.canon_unit_zero hz]
  simp only [View.ld_unit_zero (S := S1024x512) hz]

/-- The quantized weight as one function of the array's index: what the output array ends holding. -/
def Gq (c : Dev nD) : Buf (Elt Ideal) ((c : Thread nD τ).loc main_v2) :=
  fun i => Spec.wq (Wt V c) ⟨(i 0).val, (i 0).isLt⟩ ⟨(i 1).val, (i 1).isLt⟩

/-- What point `t` writes back is block `t` of the quantized weight. -/
theorem flushed_eq (c : Dev nD) (t : Fin cfg0.N) :
    (dat0 (F := Ideal) V c).flushed 1 t = ((cfg0.win 1).blk t).view.read (Elt Ideal) (Gq V c) := by
  show (cfg0.win 1).cut (grid0.coords t) ((dat0 (F := Ideal) V c).after 1 t) = _
  rw [after0_1]
  obtain ⟨-, -, e2, e3⟩ := idx_facts t
  have ht := lt_N t
  funext j
  obtain ⟨p, q, rfl⟩ : ∃ (p : Fin 1024) (q : Fin 512), j = ix2 p q := ⟨j 0, j 1, eq_ix2 j⟩
  show (out0_1 (iblk0 (F := Ideal) V c 0 t) : S1024x512.Idx → EReal) (ix2 p q) = Gq V c (((cfg0.win 1).blk t).view.emb (ix2 p q))
  rw [out_at (iblk0 (F := Ideal) V c 0 t) p q,
    pay_eq_wq (iblk0 (F := Ideal) V c 0 t) (Wt V c) (t.val / 8) (t.val % 8) (by omega) (by omega)
      (fun p q => iblk_apply V c t p q) p q]
  have hv0 : ((((cfg0.win 1).blk t).view.emb (ix2 p q)) 0).val = t.val / 8 * 1024 + p.val := by
    show win0_1.index t (0 : Fin 2) * 1024 + 1 * p.val = _; rw [e2]; omega
  have hv1 : ((((cfg0.win 1).blk t).view.emb (ix2 p q)) 1).val = t.val % 8 * 512 + q.val := by
    show win0_1.index t (1 : Fin 2) * 512 + 1 * q.val = _; rw [e3]; omega
  unfold Gq
  exact congrArg₂ (Spec.wq (Wt V c)) (Fin.ext hv0.symm) (Fin.ext hv1.symm)

/-- An index of the array is in point `t`'s block iff each coordinate is in the block's range on its axis. -/
theorem mem_blk (t : Fin cfg0.N) (i : S4096x4096.Idx) :
    i ∈ ((cfg0.win 1).blk t).view.set ↔ ∀ a : Fin 2, win0_1.index t a * S1024x512.size a ≤ (i a).val
      ∧ (i a).val < win0_1.index t a * S1024x512.size a + S1024x512.size a := by
  show i ∈ ((View.whole main_v2).slice (win0_1.rect t)).set ↔ _
  rw [View.set_slice_whole, Rect.mem_set_unit]
  exact Iff.rfl

/-- Row `r`, column `d` of the array lies in the block of point `(r / 1024) * 8 + d / 512`. -/
theorem cover (i : S4096x4096.Idx) :
    ∃ t : Fin cfg0.N, (cfg0.win 1).flush t = true ∧ i ∈ ((cfg0.win 1).blk t).view.set := by
  have h0 : (i 0).val < 4096 := (i 0).isLt
  have h1 : (i 1).val < 4096 := (i 1).isLt
  let t : Fin cfg0.N := ⟨(i 0).val / 1024 * 8 + (i 1).val / 512, Nat.lt_of_lt_of_eq (by omega) N_0.symm⟩
  obtain ⟨-, -, e2, e3⟩ := idx_facts t
  have hv : t.val = (i 0).val / 1024 * 8 + (i 1).val / 512 := rfl
  refine ⟨t, flush0_1 t, ?_⟩
  rw [mem_blk]
  intro a
  match a with
  | ⟨0, _⟩ =>
    show win0_1.index t (0 : Fin 2) * 1024 ≤ (i 0).val ∧ (i 0).val < win0_1.index t (0 : Fin 2) * 1024 + 1024
    rw [e2, hv]; omega
  | ⟨1, _⟩ =>
    show win0_1.index t (1 : Fin 2) * 512 ≤ (i 1).val ∧ (i 1).val < win0_1.index t (1 : Fin 2) * 512 + 512
    rw [e3, hv]; omega

/-- The array after the region is the quantized weight, as one function of the index. -/
theorem arr_eq (c : Dev nD) : (dat0 (F := Ideal) V c).arrAt 1 cfg0.N = Gq V c :=
  (dat0 (F := Ideal) V c).arrAt_eq_of_cover 1 (Gq V c) (fun t _ => flushed_eq V c t) cover

end Cert.KernelIdeal.Hand.Val0

namespace Cert.KernelIdeal.Hand

open Idealize.ShloMosaic Idealize.ShloMosaic.TcCoe Idealize.SL.Sem Idealize.ShloMosaic.ValueIdx
open Cert.KernelIdeal Cert.KernelIdeal.Gen

/-- The array region 0 leaves, at row `o` and column `d`, is the specification's quantized weight of the array it
    read. -/
theorem final0 (V : (c : Dev nD) → (b : Ref sig .tc) → Buf (Elt Ideal) ((c : Thread nD τ).loc b)) (c : Dev nD) (o d : Fin 4096) :
    ((dat0 (F := Ideal) V c).arrAt 1 cfg0.N : S4096x4096.Idx → EReal) (ix2 o d)
      = Cert.Spec.wq (fun o d => (V c main_arg1 : S4096x4096.Idx → EReal) (ix2 o d)) o d :=
  congrFun (Val0.arr_eq V c) (ix2 o d)

end Cert.KernelIdeal.Hand

end
-- ==== Proof.IValue.lean ====
/- The kernel program's run at the extended reals, read: the array it returns is the specification's result of its two
   arguments — the reshape of region 1's matrix product of the flattened activations with region 0's quantized weight. -/
import proofs.«104997_j10376640987248_2_alg».proof.Proof.IRegions
import proofs.«104997_j10376640987248_2_alg».proof.Proof.IBridge
import proofs.«104997_j10376640987248_2_alg».proof.Proof.IVal0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg)

/-- The array the kernel program returns is the specification's result of its two arguments. -/
theorem result_eq (c : Dev nD) :
    (shapeCast S2x2048x4096 ((dat1 (V2 m ρ) c).arrAt 2 cfg1.N) shapeCasts_S4096x4096_S2x2048x4096 : S2x2048x4096.Idx → EReal)
      = specRes (m ((c : Thread nD τ).loc main_arg0)) (m ((c : Thread nD τ).loc main_arg1)) := by
  rw [final1]
  funext i
  obtain ⟨b, s, o, rfl⟩ : ∃ (b : Fin 2) (s : Fin 2048) (o : Fin 4096), i = ix3 b s o := ⟨i 0, i 1, i 2, eq_ix3 i⟩
  refine (G1_spec (V2 m ρ) c (m ((c : Thread nD τ).loc main_arg0)) (m ((c : Thread nD τ).loc main_arg1)) (V2_main_v1 m ρ c) (fun o d => ?_) b s o).trans rfl
  rw [V2_main_v2]
  refine (final0 (V1 m ρ) c o d).trans ?_
  rw [V1_main_arg1]

/-- THE KERNEL PROGRAM'S RUN, read: every weakly fair execution terminates with the result array at the
    specification's result of the arguments, and the arguments unchanged. -/
theorem run_value : θ_run defs (onTc (τ := τ) (main (F := Ideal))) ⟨m, fun _ => 0, ρ⟩ (fun r => ∀ c : Dev nD,
      r.2.mem ((c.tc : Thread nD τ).loc main_v4) = specRes (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v4 (by decide))).trans ((W4_main_v4 m ρ c).trans (result_eq m ρ c)),
     (h c _ (mem_uc main_arg0 (by decide))).trans (W4_main_arg0 m ρ c),
     (h c _ (mem_uc main_arg1 (by decide))).trans (W4_main_arg1 m ρ c)⟩)
    (run_all m ρ)

end Cert.KernelIdeal.Hand

end
-- ==== Proof.TernaryLaw.lean ====
/- The pointwise law behind the groupwise ternary quantization, over the extended reals.

   For a real entry `g` and a positive real scale `s` the two spellings of the quantized entry agree:
   the sign form  `q * s`  with  `q = 1` if `g / s > 1/2`, `q = -1` if `g / s < -1/2`, `q = 0` otherwise,
   and the threshold form  `s` if `g > (1/2) s`, `0 - s` if `g < 0 - (1/2) s`, `0` otherwise.
   Because `s > 0`,  `g / s > 1/2 ⟺ g > (1/2) s`  and  `g / s < -1/2 ⟺ g < -(1/2) s`,  and
   `1 * s = s`, `(-1) * s = 0 - s`, `0 * s = 0`.

   Also here: the float words that occur are the reals they denote (1/2, -1/2, 1, -1, 128, 0, and a positive
   real for the floor of the scale), a finite sum of coerced reals is the coerced sum, and the scale of a group of
   real entries (the mean absolute value floored at a positive constant) is a positive real. -/
import Idealize.ShloMosaic.PureOps.Ideal
import Idealize.ShloMosaic.PureOps.Ideal.Laws
import Mathlib.Tactic

noncomputable section

namespace Cert.TernaryLaw

open Idealize.ShloMosaic

/-! ### The words as reals -/

theorem zero_eq : Ideal.ofBits .f32 0x00000000#32 = ((0 : ℝ) : EReal) := by
  rw [Ideal.ofBits_zero_f32, EReal.coe_zero]

theorem half_eq : Ideal.ofBits .f32 0x3F000000#32 = ((1 / 2 : ℝ) : EReal) := by
  simp [Ideal.ofBits, Ideal.ieee, -EReal.coe_mul]; norm_num

theorem neg_half_eq : Ideal.ofBits .f32 0xBF000000#32 = ((-(1 / 2) : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

theorem neg_one_eq : Ideal.ofBits .f32 0xBF800000#32 = ((-1 : ℝ) : EReal) := by
  simp [Ideal.ofBits, Ideal.ieee, -EReal.coe_mul]; norm_num

theorem c128_eq : Ideal.ofBits .f32 0x43000000#32 = ((128 : ℝ) : EReal) := by
  simp [Ideal.ofBits, Ideal.ieee, -EReal.coe_mul]; norm_num

/-- The floor of the scale is a positive real. -/
theorem eps_pos : ∃ e : ℝ, 0 < e ∧ Ideal.ofBits .f32 0x322BCC77#32 = (e : EReal) := by
  simp [Ideal.ofBits, Ideal.ieee, -EReal.coe_mul]

/-! ### Sums and absolute values of reals inside the extended reals -/

/-- A finite sum of coerced reals is the coerced sum. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion of the reals into the extended reals is monotone, so it commutes with the maximum. -/
theorem coe_max (a b : ℝ) : ((max a b : ℝ) : EReal) = max (a : EReal) (b : EReal) :=
  EReal.coe_strictMono.monotone.map_max

/-- The absolute value, spelt as a maximum, of a real. -/
theorem max_neg_coe (r : ℝ) : max (r : EReal) (-(r : EReal)) = ((|r| : ℝ) : EReal) := by
  rw [← EReal.coe_neg, ← coe_max, abs_eq_max_neg]

/-- The scale of a group of real entries — their mean absolute value over 128, floored — is a positive real. -/
theorem scale_pos {n : ℕ} (f : Fin n → EReal) (hf : ∀ l, ∃ r : ℝ, f l = (r : EReal)) :
    ∃ s : ℝ, 0 < s ∧
      max (Ideal.div (∑ l, max (f l) (-(f l))) (Ideal.ofBits .f32 0x43000000#32)) (Ideal.ofBits .f32 0x322BCC77#32)
        = (s : EReal) := by
  choose r hr using hf
  obtain ⟨e, he, hE⟩ := eps_pos
  refine ⟨max ((∑ l, |r l|) * (1 / 128)) e, lt_max_of_lt_right he, ?_⟩
  have hsum : (∑ l, max (f l) (-(f l))) = ((∑ l, |r l| : ℝ) : EReal) := by
    rw [coe_sum]
    refine Finset.sum_congr rfl fun l _ => ?_
    rw [hr l, max_neg_coe]
  rw [hsum, c128_eq, Ideal.div_coe (by norm_num), ← EReal.coe_mul, hE, ← coe_max]

/-! ### Comparisons of reals select as the reals' order says -/

theorem select_ogt_coe {α : Type} (a b : ℝ) (x y : α) :
    Scalar.select (Ideal.cmp .ogt (a : EReal) (b : EReal)) x y = if b < a then x else y := by
  unfold Scalar.select Ideal.cmp
  by_cases h : b < a
  · have h' : (b : EReal) < (a : EReal) := EReal.coe_lt_coe_iff.2 h
    simp [h, h']
  · have h' : ¬ (b : EReal) < (a : EReal) := fun h'' => h (EReal.coe_lt_coe_iff.1 h'')
    simp [h, h']

theorem select_olt_coe {α : Type} (a b : ℝ) (x y : α) :
    Scalar.select (Ideal.cmp .olt (a : EReal) (b : EReal)) x y = if a < b then x else y := by
  unfold Scalar.select Ideal.cmp
  by_cases h : a < b
  · have h' : (a : EReal) < (b : EReal) := EReal.coe_lt_coe_iff.2 h
    simp [h, h']
  · have h' : ¬ (a : EReal) < (b : EReal) := fun h'' => h (EReal.coe_lt_coe_iff.1 h'')
    simp [h, h']

/-! ### The law -/

/-- Sign form times the scale = threshold form, for a real entry and a positive real scale. -/
theorem ternary (g s : ℝ) (hs : 0 < s) :
    Scalar.select (Ideal.cmp .ogt (Ideal.div (g : EReal) (s : EReal)) (Ideal.ofBits .f32 0x3F000000#32))
        (Ideal.ofBits .f32 0x3F800000#32)
        (Scalar.select (Ideal.cmp .olt (Ideal.div (g : EReal) (s : EReal)) (Ideal.ofBits .f32 0xBF000000#32))
          (Ideal.ofBits .f32 0xBF800000#32) (Ideal.ofBits .f32 0x00000000#32)) * (s : EReal)
      = Scalar.select (Ideal.cmp .ogt (g : EReal) (Ideal.ofBits .f32 0x3F000000#32 * (s : EReal))) (s : EReal)
        (Scalar.select
          (Ideal.cmp .olt (g : EReal)
            (Ideal.ofBits .f32 0x00000000#32 - Ideal.ofBits .f32 0x3F000000#32 * (s : EReal)))
          (Ideal.ofBits .f32 0x00000000#32 - (s : EReal)) (Ideal.ofBits .f32 0x00000000#32)) := by
  have e1 : (1 / 2 < g * (1 / s)) ↔ (1 / 2 * s < g) := by
    rw [mul_one_div, lt_div_iff₀ hs]
  have e2 : (g * (1 / s) < -(1 / 2)) ↔ (g < 0 - 1 / 2 * s) := by
    rw [mul_one_div, div_lt_iff₀ hs]
    constructor <;> intro h <;> linarith
  rw [half_eq, neg_half_eq, one_eq, neg_one_eq, zero_eq, Ideal.div_coe hs.ne']
  simp only [← EReal.coe_mul, ← EReal.coe_sub, select_ogt_coe, select_olt_coe]
  by_cases h1 : 1 / 2 * s < g
  · rw [if_pos (e1.2 h1), if_pos h1, ← EReal.coe_mul, one_mul]
  · rw [if_neg (fun h => h1 (e1.1 h)), if_neg h1]
    by_cases h2 : g < 0 - 1 / 2 * s
    · rw [if_pos (e2.2 h2), if_pos h2, ← EReal.coe_mul]
      congr 1; ring
    · rw [if_neg (fun h => h2 (e2.1 h)), if_neg h2, ← EReal.coe_mul, zero_mul]

end Cert.TernaryLaw

end
-- ==== Proof.RefSpec.lean ====
/- The reference program's result, read index by index, is the specification.

   The reference reshapes the weight matrix to 4096 x 32 x 128 (row `o`, group `g`, lane `l` is column `g * 128 + l`),
   takes each group's mean absolute value floored at a positive constant as its scale, forms the sign of the entry
   against plus and minus one half after dividing by the scale, multiplies the sign by the scale, reshapes back and
   contracts with the activations over the 4096 columns. The specification states the quantized entry in threshold
   form. When the weight's entries are real the two forms agree entry by entry (the pointwise ternary law), so the
   two inner products agree term by term. -/
import proofs.«104997_j10376640987248_2_alg».proof.Proof.Gen.ReferenceIdeal.Read
import proofs.«104997_j10376640987248_2_alg».proof.Proof.Spec
import proofs.«104997_j10376640987248_2_alg».proof.Proof.TernaryLaw
import Idealize.ShloMosaic.Lib.ValueIdx
import Idealize.ShloMosaic.PureOps.Ideal.Laws

noncomputable section

namespace Cert.RefSpec

open Idealize.ShloMosaic Idealize.ShloMosaic.ValueIdx Cert.ReferenceIdeal Cert.ReferenceIdeal.Read

/-- Lane `d % 128` of column `d`. -/
def lane (d : Fin 4096) : Fin 128 := ⟨d.val % 128, Nat.mod_lt _ (by norm_num)⟩

/-- A column is lane `d % 128` of group `d / 128`. -/
theorem col_grp_lane (d : Fin 4096) : Cert.Spec.col (Cert.Spec.grp d) (lane d) = d := by
  apply Fin.ext
  show d.val / 128 * 128 + d.val % 128 = d.val
  omega

/-! ### The index maps of the reference's layout operations, at coordinates -/

/-- The reshape 4096 x 4096 → 4096 x 32 x 128 reads column `g * 128 + l` of row `o`. -/
theorem idx_v0 (o : Fin 4096) (g : Fin 32) (l : Fin 128) :
    idx_main_v0 (ix3 o g l) = ix2 o (Cert.Spec.col g l) := by
  have ho := o.isLt; have hg := g.isLt; have hl := l.isLt
  funext a
  match a with
  | ⟨0, _⟩ =>
    apply Fin.ext
    show ((o.val * 32 + g.val) * 128 + l.val) / 4096 = o.val
    omega
  | ⟨1, _⟩ =>
    apply Fin.ext
    show ((o.val * 32 + g.val) * 128 + l.val) % 4096 = g.val * 128 + l.val
    omega

theorem idx_v2 (o : Fin 4096) (g : Fin 32) (l : Fin 128) : idx_main_v2 (ix2 o g) l = ix3 o g l := by
  funext a; match a with | ⟨0, _⟩ => rfl | ⟨1, _⟩ => rfl | ⟨2, _⟩ => rfl

theorem idx_v3 (o : Fin 4096) (g : Fin 32) (z : Fin 1) : idx_main_v3 (ix3 o g z) = ix2 o g := by
  funext a; match a with | ⟨0, _⟩ => rfl | ⟨1, _⟩ => rfl

theorem idx_v8 (o : Fin 4096) (g : Fin 32) (l : Fin 128) : idx_main_v8 (ix3 o g l) = ix3 o g (0 : Fin 1) := by
  funext a; match a with | ⟨0, _⟩ => rfl | ⟨1, _⟩ => rfl | ⟨2, _⟩ => rfl

theorem idx_v17 (o : Fin 4096) (g : Fin 32) (l : Fin 128) : idx_main_v17 (ix3 o g l) = ix3 o g (0 : Fin 1) := by
  funext a; match a with | ⟨0, _⟩ => rfl | ⟨1, _⟩ => rfl | ⟨2, _⟩ => rfl

/-- The reshape 4096 x 32 x 128 → 4096 x 4096 reads group `d / 128`, lane `d % 128` of row `o`. -/
theorem idx_v19 (o d : Fin 4096) : idx_main_v19 (ix2 o d) = ix3 o (Cert.Spec.grp d) (lane d) := by
  have ho := o.isLt; have hd := d.isLt
  funext a
  match a with
  | ⟨0, _⟩ =>
    apply Fin.ext
    show (o.val * 4096 + d.val) / 4096 = o.val
    omega
  | ⟨1, _⟩ =>
    apply Fin.ext
    show (o.val * 4096 + d.val) / 128 % 32 = d.val / 128
    omega
  | ⟨2, _⟩ =>
    apply Fin.ext
    show (o.val * 4096 + d.val) % 128 = d.val % 128
    omega

theorem lidx_v20 (b : Fin 2) (s : Fin 2048) (o k : Fin 4096) : lidx_main_v20 (ix3 b s o) k = ix3 b s k := by
  funext a; match a with | ⟨0, _⟩ => rfl | ⟨1, _⟩ => rfl | ⟨2, _⟩ => rfl

theorem ridx_v20 (b : Fin 2) (s : Fin 2048) (o k : Fin 4096) : ridx_main_v20 (ix3 b s o) k = ix2 o k := by
  funext a; match a with | ⟨0, _⟩ => rfl | ⟨1, _⟩ => rfl

/-! ### The scale -/

/-- The reference's scale of group `g` of row `o` is the specification's. -/
theorem scale_eq (w : (⟨S4096x4096, .f32⟩ : BufTy).Contents (Elt Ideal)) (o : Fin 4096) (g : Fin 32) (z : Fin 1) :
    val_main_v7 (F := Ideal) w (ix3 o g z) = Cert.Spec.scale (fun o d => w (ix2 o d)) o g := by
  rw [val_main_v7_apply, val_main_v5_apply, val_main_v3_apply, val_main_v4_apply, val_main_cst_0_apply,
    val_main_v6_apply, val_main_cst_1_apply, idx_v3, val_main_v2_apply, val_main_cst_apply]
  simp only [Ideal.maximumf_def, Ideal.hostDivf_def, Ideal.ofBits_def]
  rw [Ideal.ofBits_zero_f32, zero_add]
  unfold Cert.Spec.scale
  refine congrArg (fun t => max (Ideal.div t (Ideal.ofBits .f32 0x43000000#32)) (Ideal.ofBits .f32 0x322BCC77#32))
    (Finset.sum_congr rfl fun l _ => ?_)
  rw [idx_v2, val_main_v1_apply, val_main_v0_apply, idx_v0, Ideal.hostAbsf_def, Ideal.absf_def]

/-! ### The quantized weight -/

/-- The reference's quantized weight at row `o`, column `d` is the specification's, when the weight's entries are real. -/
theorem wq_eq (w : (⟨S4096x4096, .f32⟩ : BufTy).Contents (Elt Ideal)) (hw : ∀ i, ∃ r : ℝ, w i = (r : EReal))
    (o d : Fin 4096) :
    val_main_v19 (F := Ideal) w (ix2 o d) = Cert.Spec.wq (fun o d => w (ix2 o d)) o d := by
  rw [val_main_v19_apply, idx_v19, val_main_v18_apply, val_main_v16_apply, val_main_v15_apply, val_main_v11_apply,
    val_main_v14_apply, val_main_v13_apply, val_main_v9_apply, val_main_v0_apply, val_main_v8_apply, val_main_v17_apply,
    val_main_v10_apply, val_main_v12_apply, val_main_call0_v0_apply, val_main_call0_v1_apply, val_main_call1_v0_apply,
    val_main_cst_2_apply, val_main_cst_3_apply, val_main_cst_4_apply, val_main_cst_5_apply, val_main_cst_6_apply,
    idx_v0, idx_v8, idx_v17, col_grp_lane, scale_eq]
  simp only [Ideal.mulf_def, Ideal.hostDivf_def, Ideal.cmpf_def, Ideal.ofBits_def]
  obtain ⟨r, hr⟩ := hw (ix2 o d)
  obtain ⟨s, hs, hS⟩ := Cert.TernaryLaw.scale_pos
    (fun l : Fin 128 => w (ix2 o (Cert.Spec.col (Cert.Spec.grp d) l))) (fun l => hw _)
  have hS' : Cert.Spec.scale (fun o d => w (ix2 o d)) o (Cert.Spec.grp d) = (s : EReal) := hS
  unfold Cert.Spec.wq
  beta_reduce
  rw [hS', hr]
  exact Cert.TernaryLaw.ternary r s hs

/-! ### The result -/

/-- The reference's result at batch `b`, position `s`, output feature `o` is the specification's at the flattened row
    `b * 2048 + s`. -/
theorem ref_eq_spec (x : (⟨S2x2048x4096, .f32⟩ : BufTy).Contents (Elt Ideal))
    (w : (⟨S4096x4096, .f32⟩ : BufTy).Contents (Elt Ideal)) (hw : ∀ i, ∃ r : ℝ, w i = (r : EReal))
    (b : Fin 2) (s : Fin 2048) (o : Fin 4096) :
    val_main_v20 (F := Ideal) x w (ix3 b s o)
      = Cert.Spec.out
          (fun r d => x (ix3 (⟨r.val / 2048, by have := r.isLt; omega⟩ : Fin 2)
            (⟨r.val % 2048, Nat.mod_lt _ (by norm_num)⟩ : Fin 2048) d))
          (fun o d => w (ix2 o d)) ⟨b.val * 2048 + s.val, by have := b.isLt; have := s.isLt; omega⟩ o := by
  have hb := b.isLt; have hs := s.isLt
  rw [val_main_v20_apply]
  unfold Cert.Spec.out
  refine Finset.sum_congr rfl fun k _ => ?_
  rw [lidx_v20, ridx_v20, wq_eq w hw]
  refine congrArg (fun i => x i * Cert.Spec.wq (fun o d => w (ix2 o d)) o k) ?_
  funext a
  match a with
  | ⟨0, _⟩ => exact Fin.ext (by show b.val = (b.val * 2048 + s.val) / 2048; omega)
  | ⟨1, _⟩ => exact Fin.ext (by show s.val = (b.val * 2048 + s.val) % 2048; omega)
  | ⟨2, _⟩ => rfl

end Cert.RefSpec

end
-- ==== Proof.FiniteInputs.lean ====
/- From the precondition "every entry of both inputs is finite" to "every entry is a real".

   The precondition is the conjunction of two reductions by `and` over the comparisons `|entry| < +∞`; a reduction by
   `and` into a single result that is 1 had a 1 at every index, and an extended real whose absolute value is below
   `+∞` is neither infinity, hence a real. -/
import proofs.«104997_j10376640987248_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws
import Mathlib.Tactic

noncomputable section

namespace Cert.FiniteInputs

open Idealize.ShloMosaic Cert.Pre_finite_inputs

/-- The scalar shape has one index. -/
instance : Subsingleton S_.Idx := ⟨fun a b => funext fun d => d.elim0⟩

/-- An extended real whose absolute value compares below the word of `+∞` is a real. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

variable [Facts]

/-- Under the precondition every entry of both inputs is a real. -/
theorem both_all (x : FVec Ideal S2x2048x4096 .f32) (w : FVec Ideal S4096x4096 .f32)
    (h : fn (F := Ideal) x w = fun _ => 1#1) :
    (∀ i, ∃ r : ℝ, x i = (r : EReal)) ∧ (∀ i, ∃ r : ℝ, w i = (r : EReal)) := by
  have h0 := congrFun h ValueIdx.ix0
  dsimp only [fn] at h0
  obtain ⟨h1, h2⟩ := IntOp.andi_eq_one.1 h0
  refine ⟨fun i => ?_, fun i => ?_⟩
  · exact real_of_abs_lt_inf (x i) (Host.reduce_andi_all _ _ _ _ _ h1 i)
  · exact real_of_abs_lt_inf (w i) (Host.reduce_andi_all _ _ _ _ _ h2 i)

/-- Under the precondition every entry of the weight is a real. -/
theorem weight_real (x : FVec Ideal S2x2048x4096 .f32) (w : FVec Ideal S4096x4096 .f32)
    (h : fn (F := Ideal) x w = fun _ => 1#1) : ∀ i, ∃ r : ℝ, w i = (r : EReal) :=
  (both_all x w h).2

/-- Under the precondition every entry of the activations is a real. -/
theorem act_real (x : FVec Ideal S2x2048x4096 .f32) (w : FVec Ideal S4096x4096 .f32)
    (h : fn (F := Ideal) x w = fun _ => 1#1) : ∀ i, ∃ r : ℝ, x i = (r : EReal) :=
  (both_all x w h).1

end Cert.FiniteInputs

end
-- ==== Proof.lean ====
/- The proof of `Cert.Claim`: the groupwise ternary-quantized linear layer as two kernel regions — a quantization
   pass over the weight, then a tiled matrix product accumulated over column tiles in a scratch buffer — against the
   plain reference, over the extended reals.

   Both programs compute, at entry (b, s, o), the inner product over the 4096 columns of row b·2048 + s of the
   activations with row o of the quantized weight (`Cert.Spec.out`). On the kernel side the quantized weight is in the
   threshold form (an entry compared with ± half its group's scale selects the scale, its negative or zero), and the
   inner product is accumulated eight column tiles at a time from zero: sums over the extended reals are associative and
   commutative, so the tiling changes nothing. On the reference side the entry is divided by the scale, compared with
   ± 1/2, and the selected sign multiplied by the scale: for a FINITE weight the scale is a positive real and the two
   forms agree entry by entry — the one place the precondition is used. The frames: each program runs to the end
   and leaves its arguments unchanged; the word-level kernel program is the idealized one's text, so one proof, generic
   in the float instance, serves both. The idealization rewrote nothing, so `preserves` is trivial. -/
import proofs.«104997_j10376640987248_2_alg».proof.Defs
import proofs.«104997_j10376640987248_2_alg».proof.Proof.Gen.Kernel
import proofs.«104997_j10376640987248_2_alg».proof.Proof.Gen.KernelIdeal
import proofs.«104997_j10376640987248_2_alg».proof.Proof.Gen.ReferenceIdeal
import proofs.«104997_j10376640987248_2_alg».proof.Proof.Gen.Pre_finite_inputs
import proofs.«104997_j10376640987248_2_alg».proof.Proof.Gen.ReferenceIdeal.Run
import proofs.«104997_j10376640987248_2_alg».proof.Proof.Gen.ReferenceIdeal.Read
import proofs.«104997_j10376640987248_2_alg».proof.Proof.KRegions
import proofs.«104997_j10376640987248_2_alg».proof.Proof.IRegions
import proofs.«104997_j10376640987248_2_alg».proof.Proof.IValue
import proofs.«104997_j10376640987248_2_alg».proof.Proof.RefSpec
import proofs.«104997_j10376640987248_2_alg».proof.Proof.FiniteInputs

noncomputable section

namespace Cert.Proof

open Idealize.ShloMosaic Idealize.ShloMosaic.TcCoe Idealize.SL.Sem Idealize.ShloMosaic.ValueIdx

/-- The word-level kernel program runs to the end and leaves its arguments unchanged. -/
theorem frame_k : Cert.frame_Kernel := fun m ρ _ => Cert.Kernel.Hand.frame (F := Bits) m ρ
/-- So does the idealized kernel program. -/
theorem frame_ki : Cert.frame_KernelIdeal := fun m ρ _ => Cert.KernelIdeal.Hand.frame (F := Ideal) m ρ
/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote no operation. -/
theorem preserves : Cert.preserves_Kernel_KernelIdeal := trivial

/-- Both programs end with the specification's result of the arguments: the kernel program by its run read through
    its two regions, the reference by its run read one operation at a time, the two quantization forms agreeing because
    the weight is finite. -/
theorem algebraic : Cert.algebraic_KernelIdeal_ReferenceIdeal := by
  intro m ρ m' ρ' hpre hagree
  refine ⟨fun c => Cert.KernelIdeal.Hand.specRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v20_eq, (hagree c).1, (hagree c).2]
  funext i
  obtain ⟨b, s, o, rfl⟩ : ∃ (b : Fin 2) (s : Fin 2048) (o : Fin 4096), i = ix3 b s o := ⟨i 0, i 1, i 2, eq_ix3 i⟩
  exact (Cert.RefSpec.ref_eq_spec _ _ (Cert.FiniteInputs.weight_real _ _ (hpre c)) b s o).trans rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
